-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x400000 : Shape := ⟨2, ![2, 400000]⟩
abbrev S513x128 : Shape := ⟨2, ![513, 128]⟩
abbrev S128 : Shape := ⟨1, ![128]⟩
abbrev S128x128 : Shape := ⟨2, ![128, 128]⟩
abbrev S257x128 : Shape := ⟨2, ![257, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S513x128 : S_.BroadcastsInDim S513x128 (![] : Fin 0 → Fin S513x128.rank)
  reducesTo_S513x128_S_d0_1 : S513x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S257x128 : S_.BroadcastsInDim S257x128 (![] : Fin 0 → Fin S257x128.rank)
  reducesTo_S257x128_S_d0_1 : S257x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S257x128 .f32) (main_arg9 : FVec F S128 .f32) (main_arg10 : FVec F S128x128 .f32) (main_arg11 : FVec F S128 .f32) (main_v33 : IVec S_ 1) : IVec S_ 1 :=
  let main_v34 : FVec F S257x128 .f32 := Host.absf main_arg8
  let main_cst_12 : FVec F S_ .f32 := constant S_ .f32 0x7F800000#32
  let main_v35 : FVec F S257x128 .f32 := broadcastInDim S257x128 ![] bcast_S_S257x128 main_cst_12
  let main_v36 : IVec S257x128 1 := cmpf .olt main_v34 main_v35
  let main_c_13 : IVec S_ 1 := constantI S_ 1 1#1
  let main_v37 : IVec S_ 1 := (fun x v => Host.reduce IntOp.andi x v reducesTo_S257x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S257x128 .f32) (main_arg9 : FVec F S128 .f32) (main_arg10 : FVec F S128x128 .f32) (main_arg11 : FVec F S128 .f32) (main_v13 : IVec S_ 1) (main_v16 : IVec S513x128 1) : IVec S_ 1 :=
  let main_c_5 : IVec S_ 1 := constantI S_ 1 1#1
  let main_v17 : IVec S_ 1 := (fun x v => Host.reduce IntOp.andi x v reducesTo_S513x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : FVec F S50000x3 .f32) (main_arg2 : FVec F S50000x128 .f32) (main_arg3 : IVec S2x400000 32) (main_arg4 : FVec F S513x128 .f32) (main_arg5 : FVec F S128 .f32) (main_arg6 : FVec F S128x128 .f32) (main_arg7 : FVec F S128 .f32) (main_arg8 : FVec F S257x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S513x128 .f32 := Host.absf main_arg4
  let main_cst_4 : FVec F S_ .f32 := constant S_ .f32 0x7F800000#32
  let main_v15 : FVec F S513x128 .f32 := broadcastInDim S513x128 ![] bcast_S_S513x128 main_cst_4
  let main_v16 : IVec S513x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S50000x3 : Shape := ⟨2, ![50000, 3]⟩
abbrev S2x400000 : Shape := ⟨2, ![2, 400000]⟩
abbrev S513x128 : Shape := ⟨2, ![513, 128]⟩
abbrev S128 : Shape := ⟨1, ![128]⟩
abbrev S128x128 : Shape := ⟨2, ![128, 128]⟩
abbrev S257x128 : Shape := ⟨2, ![257, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S400000x3 : Shape := ⟨2, ![400000, 3]⟩
abbrev S400000x513 : Shape := ⟨2, ![400000, 513]⟩
abbrev S400000x257 : Shape := ⟨2, ![400000, 257]⟩
abbrev S1x128 : Shape := ⟨2, ![1, 128]⟩
abbrev S1600x513 : Shape := ⟨2, ![1600, 513]⟩
abbrev S1600x257 : Shape := ⟨2, ![1600, 257]⟩
abbrev S1600x128 : Shape := ⟨2, ![1600, 128]⟩

abbrev nBuf : Space → Nat
  | .hbm => 98
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S50000x128, .f32⟩
  | .hbm, ⟨3, _⟩ => ⟨S2x400000, .i32⟩
  | .hbm, ⟨4, _⟩ => ⟨S513x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S257x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x128, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x128, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x128, .f32⟩
  | .hbm, ⟨43, _⟩ => ⟨S_, .i32⟩
  | .hbm, ⟨44, _⟩ => ⟨S400000, .i32⟩
  | .hbm, ⟨45, _⟩ => ⟨S400000, .i1⟩
  | .hbm, ⟨46, _⟩ => ⟨S_, .i32⟩
  | .hbm, ⟨47, _⟩ => ⟨S400000, .i32⟩
  | .hbm, ⟨48, _⟩ => ⟨S400000, .i32⟩
  | .hbm, ⟨49, _⟩ => ⟨S400000, .i32⟩
  | .hbm, ⟨50, _⟩ => ⟨S400000x1, .i32⟩
  | .hbm, ⟨51, _⟩ => ⟨S400000x128, .f32⟩
  | .hbm, ⟨52, _⟩ => ⟨S_, .i32⟩
  | .hbm, ⟨53, _⟩ => ⟨S400000, .i32⟩
  | .hbm, ⟨54, _⟩ => ⟨S400000, .i1⟩
  | .hbm, ⟨55, _⟩ => ⟨S_, .i32⟩
  | .hbm, ⟨56, _⟩ => ⟨S400000, .i32⟩
  | .hbm, ⟨57, _⟩ => ⟨S400000, .i32⟩
  | .hbm, ⟨58, _⟩ => ⟨S400000, .i32⟩
  | .hbm, ⟨59, _⟩ => ⟨S400000x1, .i32⟩
  | .hbm, ⟨60, _⟩ => ⟨S400000x3, .f32⟩
  | .hbm, ⟨61, _⟩ => ⟨S_, .i32⟩
  | .hbm, ⟨62, _⟩ => ⟨S400000, .i32⟩
  | .hbm, ⟨63, _⟩ => ⟨S400000, .i1⟩
  | .hbm, ⟨64, _⟩ => ⟨S_, .i32⟩
  | .hbm, ⟨65, _⟩ => ⟨S400000, .i32⟩
  | .hbm, ⟨66, _⟩ => ⟨S400000, .i32⟩
  | .hbm, ⟨67, _⟩ => ⟨S400000, .i32⟩
  | .hbm, ⟨68, _⟩ => ⟨S400000x1, .i32⟩
  | .hbm, ⟨69, _⟩ => ⟨S400000x3, .f32⟩
  | .hbm, ⟨70, _⟩ => ⟨S400000x3, .f32⟩
  | .hbm, ⟨71, _⟩ => ⟨S400000x3, .f32⟩
  | .hbm, ⟨72, _⟩ => ⟨S_, .f32⟩
  | .hbm, ⟨73, _⟩ => ⟨S400000, .f32⟩
  | .hbm, ⟨74, _⟩ => ⟨S400000x1, .f32⟩
  | .hbm, ⟨75, _⟩ => ⟨S400000x1, .f32⟩
  | .hbm, ⟨76, _⟩ => ⟨S400000x513, .f32⟩
  | .hbm, ⟨77, _⟩ => ⟨S400000x257, .f32⟩
  | .hbm, ⟨78, _⟩ => ⟨S513x128, .bf16⟩
  | .hbm, ⟨79, _⟩ => ⟨S128x128, .bf16⟩
  | .hbm, ⟨80, _⟩ => ⟨S257x128, .bf16⟩
  | .hbm, ⟨81, _⟩ => ⟨S128x128, .bf16⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S400000x128, .f32⟩
  | .hbm, ⟨87, _⟩ => ⟨S400000x128, .f32⟩
  | .hbm, ⟨88, _⟩ => ⟨S_, .f32⟩
  | .hbm, ⟨89, _⟩ => ⟨S50000x128, .f32⟩
  | .hbm, ⟨90, _⟩ => ⟨S400000x1, .i32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S400000x1, .i32⟩
  | .hbm, ⟨95, _⟩ => ⟨S50000x128, .f32⟩
  | .hbm, ⟨96, _⟩ => ⟨S50000x128, .f32⟩
  | .hbm, ⟨97, _⟩ => ⟨S50000x128, .f32⟩
  | .local _ .vmem, ⟨0, _⟩ => ⟨S1600x513, .f32⟩
  | .local _ .vmem, ⟨1, _⟩ => ⟨S1600x513, .f32⟩
  | .local _ .vmem, ⟨2, _⟩ => ⟨S1600x257, .f32⟩
  | .local _ .vmem, ⟨3, _⟩ => ⟨S1600x257, .f32⟩
  | .local _ .vmem, ⟨4, _⟩ => ⟨S513x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S257x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S1600x128, .f32⟩
  | .local _ .vmem, ⟨13, _⟩ => ⟨S1600x128, .f32⟩
  | .local _ .vmem, ⟨14, _⟩ => ⟨S1600x128, .f32⟩
  | .local _ .vmem, ⟨15, _⟩ => ⟨S1600x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call0_v0 : Ref sig .tc := ⟨.hbm, 71, rfl⟩
abbrev main_call0_cst : Ref sig .tc := ⟨.hbm, 72, rfl⟩
abbrev main_call0_v1 : Ref sig .tc := ⟨.hbm, 73, rfl⟩
abbrev main_call0_v2 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58_0 : Ref sig .tc := ⟨.hbm, 86, rfl⟩
abbrev main_v58_1 : Ref sig .tc := ⟨.hbm, 87, rfl⟩
abbrev main_cst : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x513 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S513x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S257x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1600x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1600x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x3_S400000_d1 : S400000x3.ReducesTo [1] S400000
  h_S_ : 0 < S_.numel
  concatenates_S400000x128_S400000x128_S400000x128_S400000x128_S400000x1_S400000x513_d1 : Shape.Concatenates [S400000x128, S400000x128, S400000x128, S400000x128, S400000x1] S400000x513 1
  concatenates_S400000x128_S400000x128_S400000x1_S400000x257_d1 : Shape.Concatenates [S400000x128, S400000x128, S400000x1] S400000x257 1
  bitsLt_bf16_f32 : FTy.bits .bf16 < FTy.bits .f32
  shapeCasts_S128_S1x128 : S128.ShapeCasts S1x128
  inb_S1600x513_S1600x513_0_0 : ∀ a, (![0, 0] : Fin 2 → Nat) a + S1600x513.size a ≤ S1600x513.size a
  h_S1600x513 : 0 < S1600x513.numel
  shapeCasts_S1600x513_S1600x513 : S1600x513.ShapeCasts S1600x513
  inb_S513x128_S513x128_0_0 : ∀ a, (![0, 0] : Fin 2 → Nat) a + S513x128.size a ≤ S513x128.size a
  h_S513x128 : 0 < S513x128.numel
  shapeCasts_S513x128_S513x128 : S513x128.ShapeCasts S513x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1600x128 : S1x128.Broadcasts S1600x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1600x128_S1600x128_0_0 : ∀ a, (![0, 0] : Fin 2 → Nat) a + S1600x128.size a ≤ S1600x128.size a
  h_S1600x128 : 0 < S1600x128.numel
  inb_S1600x257_S1600x257_0_0 : ∀ a, (![0, 0] : Fin 2 → Nat) a + S1600x257.size a ≤ S1600x257.size a
  h_S1600x257 : 0 < S1600x257.numel
  shapeCasts_S1600x257_S1600x257 : S1600x257.ShapeCasts S1600x257
  inb_S257x128_S257x128_0_0 : ∀ a, (![0, 0] : Fin 2 → Nat) a + S257x128.size a ≤ S257x128.size a
  h_S257x128 : 0 < S257x128.numel
  shapeCasts_S257x128_S257x128 : S257x128.ShapeCasts S257x128
  bcast_S_S50000x128 : S_.BroadcastsInDim S50000x128 (![] : Fin 0 → Fin S50000x128.rank)
  gather_S50000x128_S400000x1_S400000x128_1_0_n_n_0_1_1128_wf : GatherDims.WF S50000x128 S400000x1 S400000x128 [1] [0] [] [0] [] 1 ![1, 128]
  gather_S50000x3_S400000x1_S400000x3_1_0_n_n_0_1_13_wf : GatherDims.WF S50000x3 S400000x1 S400000x3 [1] [0] [] [0] [] 1 ![1, 3]
  dot_S1600x513_S513x128_S1600x128_1_0_0_1_n_n_wf : DotDims.WF S1600x513 S513x128 S1600x128 [1] [0] [0] [1] [] []
  dot_S1600x128_S128x128_S1600x128_1_0_0_1_n_n_wf : DotDims.WF S1600x128 S128x128 S1600x128 [1] [0] [0] [1] [] []
  dot_S1600x257_S257x128_S1600x128_1_0_0_1_n_n_wf : DotDims.WF S1600x257 S257x128 S1600x128 [1] [0] [0] [1] [] []
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x513.size a ≤ S400000x513.size a
  hwx0_0 : ∀ i : grid0.Coords, EltTy.bits .f32 = 32 ∨ (Rect.block (s := S400000x513) S1600x513.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x257.size a ≤ S400000x257.size a
  hwx0_1 : ∀ i : grid0.Coords, EltTy.bits .f32 = 32 ∨ (Rect.block (s := S400000x257) S1600x257.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S513x128.size a ≤ S513x128.size a
  hwx0_2 : ∀ i : grid0.Coords, EltTy.bits .bf16 = 32 ∨ (Rect.block (s := S513x128) S513x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S257x128.size a ≤ S257x128.size a
  hwx0_6 : ∀ i : grid0.Coords, EltTy.bits .bf16 = 32 ∨ (Rect.block (s := S257x128) S257x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1600x128.size a ≤ S400000x128.size a
  hwx0_10 : ∀ i : grid0.Coords, EltTy.bits .f32 = 32 ∨ (Rect.block (s := S400000x128) S1600x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1600x128.size a ≤ S400000x128.size a
  hwx0_11 : ∀ i : grid0.Coords, EltTy.bits .f32 = 32 ∨ (Rect.block (s := S400000x128) S1600x128.size (cc0_transform_11 i) (hinb0_11 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def dot_S1600x513_S513x128_S1600x128_1_0_0_1_n_n : DotDims S1600x513 S513x128 S1600x128 where
  lhsContracting := [1]
  rhsContracting := [0]
  lhsNonContracting := [0]
  rhsNonContracting := [1]
  lhsBatch := []
  rhsBatch := []
  wf := dot_S1600x513_S513x128_S1600x128_1_0_0_1_n_n_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf
def dot_S1600x257_S257x128_S1600x128_1_0_0_1_n_n : DotDims S1600x257 S257x128 S1600x128 where
  lhsContracting := [1]
  rhsContracting := [0]
  lhsNonContracting := [0]
  rhsNonContracting := [1]
  lhsBatch := []
  rhsBatch := []
  wf := dot_S1600x257_S257x128_S1600x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_v48) S1600x513.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S1600x257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S513x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v55) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S257x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v56) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v57) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v58_0) S1600x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v58_1) S1600x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x400000 : Shape := ⟨2, ![2, 400000]⟩
abbrev S513x128 : Shape := ⟨2, ![513, 128]⟩
abbrev S128 : Shape := ⟨1, ![128]⟩
abbrev S128x128 : Shape := ⟨2, ![128, 128]⟩
abbrev S257x128 : Shape := ⟨2, ![257, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x3 : Shape := ⟨2, ![400000, 3]⟩
abbrev S400000x128 : Shape := ⟨2, ![400000, 128]⟩
abbrev S400000x513 : Shape := ⟨2, ![400000, 513]⟩
abbrev S400000x257 : Shape := ⟨2, ![400000, 257]⟩
abbrev S1x128 : Shape := ⟨2, ![1, 128]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S50000x3, .f32⟩
  | 2 => ⟨S50000x128, .f32⟩
  | 3 => ⟨S2x400000, .i32⟩
  | 4 => ⟨S513x128, .f32⟩
  | 5 => ⟨S128, .f32⟩
  | 6 => ⟨S128x128, .f32⟩
  | 7 => ⟨S128, .f32⟩
  | 8 => ⟨S257x128, .f32⟩
  | 9 => ⟨S128, .f32⟩
  | 10 => ⟨S128x128, .f32⟩
  | 11 => ⟨S128, .f32⟩
  | 12 => ⟨S1x400000, .i32⟩
  | 13 => ⟨S400000, .i32⟩
  | 14 => ⟨S1x400000, .i32⟩
  | 15 => ⟨S400000, .i32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x3, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x3, .f32⟩
  | 34 => ⟨S400000x3, .f32⟩
  | 35 => ⟨S400000x3, .f32⟩
  | 36 => ⟨S_, .f32⟩
  | 37 => ⟨S400000, .f32⟩
  | 38 => ⟨S400000x1, .f32⟩
  | 39 => ⟨S400000x1, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000x128, .f32⟩
  | 49 => ⟨S_, .i32⟩
  | 50 => ⟨S400000, .i32⟩
  | 51 => ⟨S400000, .i1⟩
  | 52 => ⟨S_, .i32⟩
  | 53 => ⟨S400000, .i32⟩
  | 54 => ⟨S400000, .i32⟩
  | 55 => ⟨S400000, .i32⟩
  | 56 => ⟨S400000x1, .i32⟩
  | 57 => ⟨S400000x128, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x128, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000x128, .f32⟩
  | 76 => ⟨S400000x513, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x128, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x128, .f32⟩
  | 95 => ⟨S400000x257, .f32⟩
  | 96 => ⟨S400000x128, .f32⟩
  | 97 => ⟨S1x128, .f32⟩
  | 98 => ⟨S400000x128, .f32⟩
  | 99 => ⟨S400000x128, .f32⟩
  | 100 => ⟨S400000x128, .f32⟩
  | 101 => ⟨S400000x128, .f32⟩
  | 102 => ⟨S_, .f32⟩
  | 103 => ⟨S400000x128, .f32⟩
  | 104 => ⟨S400000x128, .f32⟩
  | 105 => ⟨S_, .f32⟩
  | 106 => ⟨S400000x128, .f32⟩
  | 107 => ⟨S400000x128, .f32⟩
  | 108 => ⟨S400000x128, .f32⟩
  | 109 => ⟨S400000x128, .f32⟩
  | 110 => ⟨S1x128, .f32⟩
  | 111 => ⟨S400000x128, .f32⟩
  | 112 => ⟨S400000x128, .f32⟩
  | 113 => ⟨S400000x128, .f32⟩
  | 114 => ⟨S400000x128, .f32⟩
  | 115 => ⟨S_, .f32⟩
  | 116 => ⟨S400000x128, .f32⟩
  | 117 => ⟨S400000x128, .f32⟩
  | 118 => ⟨S_, .f32⟩
  | 119 => ⟨S400000x128, .f32⟩
  | 120 => ⟨S400000x128, .f32⟩
  | 121 => ⟨S400000x128, .f32⟩
  | 122 => ⟨S400000x128, .f32⟩
  | 123 => ⟨S1x128, .f32⟩
  | 124 => ⟨S400000x128, .f32⟩
  | 125 => ⟨S400000x128, .f32⟩
  | 126 => ⟨S400000x128, .f32⟩
  | 127 => ⟨S400000x128, .f32⟩
  | _ => ⟨S50000x128, .f32⟩

abbrev hbmTy0_1 (i : Nat) : BufTy := match i % 128 with
  | 0 => ⟨S1x128, .f32⟩
  | 1 => ⟨S400000x128, .f32⟩
  | 2 => ⟨S400000x128, .f32⟩
  | 3 => ⟨S400000x128, .f32⟩
  | 4 => ⟨S_, .f32⟩
  | 5 => ⟨S50000x128, .f32⟩
  | 6 => ⟨S400000x1, .i32⟩
  | 7 => ⟨S50000x128, .f32⟩
  | 8 => ⟨S_, .f32⟩
  | 9 => ⟨S50000x128, .f32⟩
  | 10 => ⟨S400000x1, .i32⟩
  | 11 => ⟨S50000x128, .f32⟩
  | 12 => ⟨S50000x128, .f32⟩
  | 13 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_c_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call2_v0 : Ref sig .tc := ⟨.hbm, 113, rfl⟩
abbrev main_call2_v1 : Ref sig .tc := ⟨.hbm, 114, rfl⟩
abbrev main_call2_cst : Ref sig .tc := ⟨.hbm, 115, rfl⟩
abbrev main_call2_v2 : Ref sig .tc := ⟨.hbm, 116, rfl⟩
abbrev main_call2_v3 : Ref sig .tc := ⟨.hbm, 117, rfl⟩
abbrev main_call2_cst_0 : Ref sig .tc := ⟨.hbm, 118, rfl⟩
abbrev main_call2_v4 : Ref sig .tc := ⟨.hbm, 119, rfl⟩
abbrev main_call2_v5 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_15 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x3_S400000_d1 : S400000x3.ReducesTo [1] S400000
  h_S_ : 0 < S_.numel
  concatenates_S400000x128_S400000x128_S400000x128_S400000x128_S400000x1_S400000x513_d1 : Shape.Concatenates [S400000x128, S400000x128, S400000x128, S400000x128, S400000x1] S400000x513 1
  concatenates_S400000x128_S400000x128_S400000x1_S400000x257_d1 : Shape.Concatenates [S400000x128, S400000x128, S400000x1] S400000x257 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S_S50000x128 : S_.BroadcastsInDim S50000x128 (![] : Fin 0 → Fin S50000x128.rank)
  gather_S50000x3_S400000x1_S400000x3_1_0_n_n_0_1_13_wf : GatherDims.WF S50000x3 S400000x1 S400000x3 [1] [0] [] [0] [] 1 ![1, 3]
  gather_S50000x128_S400000x1_S400000x128_1_0_n_n_0_1_1128_wf : GatherDims.WF S50000x128 S400000x1 S400000x128 [1] [0] [] [0] [] 1 ![1, 128]
  dot_S400000x513_S513x128_S400000x128_1_0_0_1_n_n_wf : DotDims.WF S400000x513 S513x128 S400000x128 [1] [0] [0] [1] [] []
  dot_S400000x128_S128x128_S400000x128_1_0_0_1_n_n_wf : DotDims.WF S400000x128 S128x128 S400000x128 [1] [0] [0] [1] [] []
  dot_S400000x257_S257x128_S400000x128_1_0_0_1_n_n_wf : DotDims.WF S400000x257 S257x128 S400000x128 [1] [0] [0] [1] [] []
  scatter_S50000x128_S400000x1_S400000x128_1_0_0_1_wf : ScatterDims.WF S50000x128 S400000x1 S400000x128 [1] [0] [0] 1

variable [Facts₀]

def gather_S50000x3_S400000x1_S400000x3_1_0_n_n_0_1_13 : GatherDims S50000x3 S400000x1 S400000x3 where
  offsetDims := [1]
  collapsedSliceDims := [0]
  operandBatchingDims := []
  startIndicesBatchingDims := []
  startIndexMap := [0]
  indexVectorDim := 1
  sliceSizes := ![1, 3]
  wf := gather_S50000x3_S400000x1_S400000x3_1_0_n_n_0_1_13_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x513_S513x128_S400000x128_1_0_0_1_n_n : DotDims S400000x513 S513x128 S400000x128 where
  lhsContracting := [1]
  rhsContracting := [0]
  lhsNonContracting := [0]
  rhsNonContracting := [1]
  lhsBatch := []
  rhsBatch := []
  wf := dot_S400000x513_S513x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x257_S257x128_S400000x128_1_0_0_1_n_n : DotDims S400000x257 S257x128 S400000x128 where
  lhsContracting := [1]
  rhsContracting := [0]
  lhsNonContracting := [0]
  rhsNonContracting := [1]
  lhsBatch := []
  rhsBatch := []
  wf := dot_S400000x257_S257x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

class Facts : Prop extends Facts₀ where

variable [Facts]
-- ==== Proof.KernelRegion.lean ====
/-
  The frame of `Kernel`'s @main: the host lines before the one region, the region on its 250 grid points, the host
  lines after it.

  The region's body reads each of its ten input blocks whole and stores each of its two output blocks whole, so
  after the body at a grid point every input staging buffer still holds its block and each output staging buffer
  holds one pure function of the input blocks: the first output the two-layer SiLU network of the point's 1600
  rows of the 513-column state, the second the two-layer tanh network of the point's 1600 rows of the 257-column
  state. With that as the per-point data the pipeline's launch theorem gives the run of @main: it terminates,
  faults nowhere, each output array ends as the blocks written back, and every buffer no window stages ends as
  the host lines after the region leave it. No host line writes an argument array, so each argument ends as it
  was launched.
-/
import proofs.«179030_j75333726372237_1_alg».proof.Proof.Gen.Kernel.Launch
import proofs.«179030_j75333726372237_1_alg».proof.Proof.Gen.Kernel.Skeleton
import proofs.«179030_j75333726372237_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch: the index arithmetic and the gathers, the edge length, then
    the two concatenations, the weights' conversions and the biases' reshapes. -/
abbrev before : List (List (HloOp τ sig (Elt F))) := [hostOps0, hostOps0_1, hostOps0_2]

/-- The buffers' contents when the region is entered: the launch contents run through the host lines before it. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: run up to the region it
    leaves the region to run, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the windows' arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (when it is not fetched
    its block index has not moved), for any per-point data over the region-entry arrays whose body leaves it in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (when it is not fetched
    its block index has not moved), for any per-point data over the region-entry arrays whose body leaves it in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (when it is not fetched
    its block index has not moved), for any per-point data over the region-entry arrays whose body leaves it in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (when it is not fetched
    its block index has not moved), for any per-point data over the region-entry arrays whose body leaves it in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (when it is not fetched
    its block index has not moved), for any per-point data over the region-entry arrays whose body leaves it in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (when it is not fetched
    its block index has not moved), for any per-point data over the region-entry arrays whose body leaves it in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (when it is not fetched
    its block index has not moved), for any per-point data over the region-entry arrays whose body leaves it in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (when it is not fetched
    its block index has not moved), for any per-point data over the region-entry arrays whose body leaves it in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (when it is not fetched
    its block index has not moved), for any per-point data over the region-entry arrays whose body leaves it in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (when it is not fetched
    its block index has not moved), for any per-point data over the region-entry arrays whose body leaves it in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The post of the frame claim from a run to the launch theorem's post: every argument array is a buffer no window
    stages, so it ends as the later host lines leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## The body's accesses: every load and store is of the whole block -/

abbrev rState : Rect S1600x513 := Rect.unit (s := S1600x513) ![0, 0] S1600x513.size inb_S1600x513_S1600x513_0_0
abbrev rStatePe : Rect S1600x257 := Rect.unit (s := S1600x257) ![0, 0] S1600x257.size inb_S1600x257_S1600x257_0_0
abbrev rW1 : Rect S513x128 := Rect.unit (s := S513x128) ![0, 0] S513x128.size inb_S513x128_S513x128_0_0
abbrev rWp1 : Rect S257x128 := Rect.unit (s := S257x128) ![0, 0] S257x128.size inb_S257x128_S257x128_0_0
abbrev rSq : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S1600x128 := Rect.unit (s := S1600x128) ![0, 0] S1600x128.size inb_S1600x128_S1600x128_0_0

/-! ## What the body leaves in each output window's buffer -/

/-- The message block: the SiLU network's payload of the state block, the first layer's weights and bias and the
    second layer's weights and bias, stored over the whole buffer. -/
def outMsg (x0 : Vec F S1600x513 .f32) (x2 : Vec F S513x128 .bf16) (x3 : Vec F S1x128 .f32) (x4 : Vec F S128x128 .bf16) (x5 : Vec F S1x128 .f32) :
    Vec F S1600x128 .f32 :=
  View.canon [⟨rOut, k0_pay2 (View.ld x0 rState) (View.ld x2 rW1) (View.ld x3 rBias) (View.ld x4 rSq) (View.ld x5 rBias)⟩]

/-- The positional message block: the tanh network's payload of the positional state block and its two layers'
    weights and biases, stored over the whole buffer. -/
def outMsgPe (x1 : Vec F S1600x257 .f32) (x6 : Vec F S257x128 .bf16) (x7 : Vec F S1x128 .f32) (x8 : Vec F S128x128 .bf16) (x9 : Vec F S1x128 .f32) :
    Vec F S1600x128 .f32 :=
  View.canon [⟨rOut, k0_pay1 (k0_pay3 (View.ld x1 rStatePe) (View.ld x6 rWp1) (View.ld x7 rBias)) (View.ld x8 rSq) (View.ld x9 rBias)⟩]

/-- One store of the whole block covers the buffer. -/
theorem coverOut (p0 : Vec F S1600x128 .f32) (y : S1600x128.Idx) :
    ∃ pc ∈ ([⟨rOut, p0⟩] : List (View.Piece (Elt F) S1600x128 .f32)), y ∈ pc.1.set :=
  View.cover_of_tiled [⟨rOut, p0⟩] S1600x128.size (by rfl) y

/-! ## The body's triple -/

set_option maxHeartbeats 4000000 in
/-- The body on whole staging buffers, the ten inputs' at contents `x0 … x9` and the two outputs' at anything, returns
    with the inputs' as they were, the message buffer at `outMsg` and the positional message buffer at `outMsgPe` of
    them: the printed function is its skeleton of loads and stores, run symbolically. -/
theorem sound_kernel (c : Dev nD) (E : Set ℕ) (i : grid0.Coords) (arg1 : Memref sig .tc .vmem S1600x513 .f32) (harg1 : arg1.IsWhole) (arg2 : Memref sig .tc .vmem S1600x257 .f32) (harg2 : arg2.IsWhole) (arg3 : Memref sig .tc .vmem S513x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S257x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1600x128 .f32) (harg11 : arg11.IsWhole) (arg12 : Memref sig .tc .vmem S1600x128 .f32) (harg12 : arg12.IsWhole)
    (x0 : Vec F S1600x513 .f32) (x1 : Vec F S1600x257 .f32) (x2 : Vec F S513x128 .bf16) (x3 : Vec F S1x128 .f32) (x4 : Vec F S128x128 .bf16) (x5 : Vec F S1x128 .f32) (x6 : Vec F S257x128 .bf16) (x7 : Vec F S1x128 .f32) (x8 : Vec F S128x128 .bf16) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (outMsg x0 x2 x3 x4 x5) ∗ owns (c : Thread nD τ) arg12 fullShare (outMsgPe x1 x6 x7 x8 x9)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11 arg12 harg12) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (coverOut _)
  iexists _; isplitr
  swap; · iexact H11
  ipureintro
  try dsimp only
  exact View.read_writes_eq_canon _ _ _ (coverOut _)

/-! ## The per-point data of the pipeline -/

/-- The arrays as the region finds them; after the body at point `t` each input's buffer at its block, the message
    buffer at `outMsg` and the positional one at `outMsgPe` of the point's input blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outMsg (iblk m c 0 t) (iblk m c 2 t) (iblk m c 3 t) (iblk m c 4 t) (iblk m c 5 t)
    | ⟨11, _⟩ => outMsgPe (iblk m c 1 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outMsg (iblk m c 0 t) (iblk m c 2 t) (iblk m c 3 t) (iblk m c 4 t) (iblk m c 5 t) := by dsimp only [dats]
theorem after11 (c : Dev nD) (t : Fin cfg0.N) : (dats m 0 c).after 11 t = outMsgPe (iblk m c 1 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the body's triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere, with every window's array at what the per-point
    data give and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of `Kernel` at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.Kernel.Region

end
-- ==== Proof.KernelIdealRegion.lean ====
/-
  The frame of `KernelIdeal`'s @main: the host lines before the one region, the region on its 250 grid points, the host
  lines after it.

  The region's body reads each of its ten input blocks whole and stores each of its two output blocks whole, so
  after the body at a grid point every input staging buffer still holds its block and each output staging buffer
  holds one pure function of the input blocks: the first output the two-layer SiLU network of the point's 1600
  rows of the 513-column state, the second the two-layer tanh network of the point's 1600 rows of the 257-column
  state. With that as the per-point data the pipeline's launch theorem gives the run of @main: it terminates,
  faults nowhere, each output array ends as the blocks written back, and every buffer no window stages ends as
  the host lines after the region leave it. No host line writes an argument array, so each argument ends as it
  was launched.
-/
import proofs.«179030_j75333726372237_1_alg».proof.Proof.Gen.KernelIdeal.Launch
import proofs.«179030_j75333726372237_1_alg».proof.Proof.Gen.KernelIdeal.Skeleton
import proofs.«179030_j75333726372237_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch: the index arithmetic and the gathers, the edge length, then
    the two concatenations, the weights' conversions and the biases' reshapes. -/
abbrev before : List (List (HloOp τ sig (Elt F))) := [hostOps0, hostOps0_1, hostOps0_2]

/-- The buffers' contents when the region is entered: the launch contents run through the host lines before it. -/
abbrev V0 (c : Dev nD) : Valuation τ sig (Elt F) := StableHlo.after (List.flatten (before (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: run up to the region it
    leaves the region to run, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the region touch only the windows' arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg8`, and no window stages it: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg9`, and no window stages it: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg10`, and no window stages it: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes `main_arg11`, and no window stages it: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (when it is not fetched
    its block index has not moved), for any per-point data over the region-entry arrays whose body leaves it in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (when it is not fetched
    its block index has not moved), for any per-point data over the region-entry arrays whose body leaves it in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (when it is not fetched
    its block index has not moved), for any per-point data over the region-entry arrays whose body leaves it in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (when it is not fetched
    its block index has not moved), for any per-point data over the region-entry arrays whose body leaves it in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (when it is not fetched
    its block index has not moved), for any per-point data over the region-entry arrays whose body leaves it in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (when it is not fetched
    its block index has not moved), for any per-point data over the region-entry arrays whose body leaves it in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (when it is not fetched
    its block index has not moved), for any per-point data over the region-entry arrays whose body leaves it in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (when it is not fetched
    its block index has not moved), for any per-point data over the region-entry arrays whose body leaves it in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not (when it is not fetched
    its block index has not moved), for any per-point data over the region-entry arrays whose body leaves it in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not (when it is not fetched
    its block index has not moved), for any per-point data over the region-entry arrays whose body leaves it in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The post of the frame claim from a run to the launch theorem's post: every argument array is a buffer no window
    stages, so it ends as the later host lines leave it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c)⟩) h

/-! ## The body's accesses: every load and store is of the whole block -/

abbrev rState : Rect S1600x513 := Rect.unit (s := S1600x513) ![0, 0] S1600x513.size inb_S1600x513_S1600x513_0_0
abbrev rStatePe : Rect S1600x257 := Rect.unit (s := S1600x257) ![0, 0] S1600x257.size inb_S1600x257_S1600x257_0_0
abbrev rW1 : Rect S513x128 := Rect.unit (s := S513x128) ![0, 0] S513x128.size inb_S513x128_S513x128_0_0
abbrev rWp1 : Rect S257x128 := Rect.unit (s := S257x128) ![0, 0] S257x128.size inb_S257x128_S257x128_0_0
abbrev rSq : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S1600x128 := Rect.unit (s := S1600x128) ![0, 0] S1600x128.size inb_S1600x128_S1600x128_0_0

/-! ## What the body leaves in each output window's buffer -/

/-- The message block: the SiLU network's payload of the state block, the first layer's weights and bias and the
    second layer's weights and bias, stored over the whole buffer. -/
def outMsg (x0 : Vec F S1600x513 .f32) (x2 : Vec F S513x128 .bf16) (x3 : Vec F S1x128 .f32) (x4 : Vec F S128x128 .bf16) (x5 : Vec F S1x128 .f32) :
    Vec F S1600x128 .f32 :=
  View.canon [⟨rOut, k0_pay2 (View.ld x0 rState) (View.ld x2 rW1) (View.ld x3 rBias) (View.ld x4 rSq) (View.ld x5 rBias)⟩]

/-- The positional message block: the tanh network's payload of the positional state block and its two layers'
    weights and biases, stored over the whole buffer. -/
def outMsgPe (x1 : Vec F S1600x257 .f32) (x6 : Vec F S257x128 .bf16) (x7 : Vec F S1x128 .f32) (x8 : Vec F S128x128 .bf16) (x9 : Vec F S1x128 .f32) :
    Vec F S1600x128 .f32 :=
  View.canon [⟨rOut, k0_pay1 (k0_pay3 (View.ld x1 rStatePe) (View.ld x6 rWp1) (View.ld x7 rBias)) (View.ld x8 rSq) (View.ld x9 rBias)⟩]

/-- One store of the whole block covers the buffer. -/
theorem coverOut (p0 : Vec F S1600x128 .f32) (y : S1600x128.Idx) :
    ∃ pc ∈ ([⟨rOut, p0⟩] : List (View.Piece (Elt F) S1600x128 .f32)), y ∈ pc.1.set :=
  View.cover_of_tiled [⟨rOut, p0⟩] S1600x128.size (by rfl) y

/-! ## The body's triple -/

set_option maxHeartbeats 4000000 in
/-- The body on whole staging buffers, the ten inputs' at contents `x0 … x9` and the two outputs' at anything, returns
    with the inputs' as they were, the message buffer at `outMsg` and the positional message buffer at `outMsgPe` of
    them: the printed function is its skeleton of loads and stores, run symbolically. -/
theorem sound_kernel (c : Dev nD) (E : Set ℕ) (i : grid0.Coords) (arg1 : Memref sig .tc .vmem S1600x513 .f32) (harg1 : arg1.IsWhole) (arg2 : Memref sig .tc .vmem S1600x257 .f32) (harg2 : arg2.IsWhole) (arg3 : Memref sig .tc .vmem S513x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S257x128 .bf16) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S1600x128 .f32) (harg11 : arg11.IsWhole) (arg12 : Memref sig .tc .vmem S1600x128 .f32) (harg12 : arg12.IsWhole)
    (x0 : Vec F S1600x513 .f32) (x1 : Vec F S1600x257 .f32) (x2 : Vec F S513x128 .bf16) (x3 : Vec F S1x128 .f32) (x4 : Vec F S128x128 .bf16) (x5 : Vec F S1x128 .f32) (x6 : Vec F S257x128 .bf16) (x7 : Vec F S1x128 .f32) (x8 : Vec F S128x128 .bf16) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (outMsg x0 x2 x3 x4 x5) ∗ owns (c : Thread nD τ) arg12 fullShare (outMsgPe x1 x6 x7 x8 x9)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8 arg9 harg9 arg10 harg10 arg11 harg11 arg12 harg12) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (coverOut _)
  iexists _; isplitr
  swap; · iexact H11
  ipureintro
  try dsimp only
  exact View.read_writes_eq_canon _ _ _ (coverOut _)

/-! ## The per-point data of the pipeline -/

/-- The arrays as the region finds them; after the body at point `t` each input's buffer at its block, the message
    buffer at `outMsg` and the positional one at `outMsgPe` of the point's input blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outMsg (iblk m c 0 t) (iblk m c 2 t) (iblk m c 3 t) (iblk m c 4 t) (iblk m c 5 t)
    | ⟨11, _⟩ => outMsgPe (iblk m c 1 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outMsg (iblk m c 0 t) (iblk m c 2 t) (iblk m c 3 t) (iblk m c 4 t) (iblk m c 5 t) := by dsimp only [dats]
theorem after11 (c : Dev nD) (t : Fin cfg0.N) : (dats m 0 c).after 11 t = outMsgPe (iblk m c 1 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the body's triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere, with every window's array at what the per-point
    data give and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of `KernelIdeal` at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (run_main m ρ)

end Cert.KernelIdeal.Region

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.EdgeNetwork.lean ====
/-
  The two edge networks of the message-passing layer, entry by entry, over the extended reals.

  For one edge the message network takes the edge's state row `s` (513 numbers: both end points' features and
  positional encodings, and the edge length), applies an affine map `s ↦ s·W₁ + b₁` to 128 numbers, the SiLU
  `x ↦ x·σ(x)` entrywise, a second affine map `· W₂ + b₂` and the SiLU again. The positional network does the same
  on the 257-number positional state row with `tanh` in place of the SiLU. Both are stated here as functions of one
  row, so that a block of 1600 rows computed by a matrix product and the whole 400000-row array computed by one
  matrix product are visibly the same function of the row they stand on.

  Also here: a dense layer written with the kernel's operations (a matrix product into a zero accumulator, a one-row
  bias repeated down the rows) read at an entry, and the host's spelling of the SiLU (`x · (1 / (1 + e^(-x)))` with
  the constant one broadcast from a scalar) as the entrywise SiLU.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«179030_j75333726372237_1_alg».proof.Proof.LibPlainDot

noncomputable section

namespace Cert.EdgeNet

open Idealize.ShloMosaic Idealize.ShloMosaic.ValueIdx

/-- The SiLU, `x · σ(x)` with `σ` the logistic function. -/
def silu (x : EReal) : EReal := x * Ideal.logistic x

/-- One affine layer into 128 numbers, at output `j`: `Σₖ rowₖ · W(k, j) + bⱼ`. -/
def affine {K : ℕ} (row : Fin K → EReal) (W : (⟨2, ![K, 128]⟩ : Shape).Idx → EReal) (b : Fin 128 → EReal) (j : Fin 128) : EReal :=
  (∑ k : Fin K, row k * W (ix2 k j)) + b j

/-- The message network of one edge, at output `j`. -/
def msg {K : ℕ} (row : Fin K → EReal) (W₁ : (⟨2, ![K, 128]⟩ : Shape).Idx → EReal) (b₁ : Fin 128 → EReal)
    (W₂ : (⟨2, ![128, 128]⟩ : Shape).Idx → EReal) (b₂ : Fin 128 → EReal) (j : Fin 128) : EReal :=
  silu (affine (fun k => silu (affine row W₁ b₁ k)) W₂ b₂ j)

/-- The positional message network of one edge, at output `j`. -/
def msgPe {K : ℕ} (row : Fin K → EReal) (W₁ : (⟨2, ![K, 128]⟩ : Shape).Idx → EReal) (b₁ : Fin 128 → EReal)
    (W₂ : (⟨2, ![128, 128]⟩ : Shape).Idx → EReal) (b₂ : Fin 128 → EReal) (j : Fin 128) : EReal :=
  Ideal.tanh (affine (fun k => Ideal.tanh (affine row W₁ b₁ k)) W₂ b₂ j)

/-- A dense layer in the kernel's spelling — the product of an `R × K` block with a `K × 128` matrix into a zero
    accumulator, plus a one-row bias repeated down the rows — at row `r` and column `j` is the affine layer of row `r`. -/
theorem dense_apply {R K : ℕ} {φ₁ φ₂ : FTy} (d : DotDims ⟨2, ![R, K]⟩ ⟨2, ![K, 128]⟩ ⟨2, ![R, 128]⟩) (hd : d = DotDims.plain R K 128)
    (lhs : FVec Ideal ⟨2, ![R, K]⟩ φ₁) (rhs : FVec Ideal ⟨2, ![K, 128]⟩ φ₂) (hr : (⟨2, ![K, 128]⟩ : Shape).ShapeCasts ⟨2, ![K, 128]⟩)
    (b : FVec Ideal ⟨2, ![1, 128]⟩ .f32) (hb₁ : (⟨2, ![1, 128]⟩ : Shape).ShapeCasts ⟨2, ![1, 128]⟩)
    (hb₂ : (⟨2, ![1, 128]⟩ : Shape).Broadcasts ⟨2, ![R, 128]⟩) (r : Fin R) (j : Fin 128) :
    addf (matmul d none lhs (shapeCast ⟨2, ![K, 128]⟩ rhs hr) (constant (F := Ideal) ⟨2, ![R, 128]⟩ .f32 0x00000000#32))
        (broadcastTo ⟨2, ![R, 128]⟩ (shapeCast ⟨2, ![1, 128]⟩ b hb₁) hb₂) (ix2 r j)
      = affine (fun k => lhs (ix2 r k)) rhs (fun k => b (ix2 (0 : Fin 1) k)) j := by
  subst hd
  show matmul (DotDims.plain R K 128) none lhs (shapeCast ⟨2, ![K, 128]⟩ rhs hr) (constant (F := Ideal) ⟨2, ![R, 128]⟩ .f32 0x00000000#32) (ix2 r j)
      + broadcastTo ⟨2, ![R, 128]⟩ (shapeCast ⟨2, ![1, 128]⟩ b hb₁) hb₂ (ix2 r j) = _
  rw [shapeCast_self, shapeCast_self, PlainDot.matmul_zero_apply, broadcastTo_1b_ab_apply]
  rfl

/-- The host's spelling of the SiLU of an array — the array times one over one plus the exponential of its negation,
    the ones broadcast from a scalar constant — is the SiLU entry by entry. -/
theorem silu_host {s : Shape} (y : FVec Ideal s .f32) (h : (⟨0, ![]⟩ : Shape).BroadcastsInDim s (![] : Fin 0 → Fin s.rank)) :
    mulf y (Host.divf (broadcastInDim s ![] h (constant (F := Ideal) ⟨0, ![]⟩ .f32 0x3F800000#32))
        (addf (broadcastInDim s ![] h (constant (F := Ideal) ⟨0, ![]⟩ .f32 0x3F800000#32)) (Host.exp (Host.negf y))))
      = fun i => silu (y i) := by
  funext i
  simp only [silu, Ideal.logistic, mulf, Host.divf, addf, Host.exp, Host.negf, broadcastInDim, constant, Ideal.mulf_def,
    Ideal.hostDivf_def, Ideal.addf_def, Ideal.hostUnary_exp_def, Ideal.hostNegf_def, Ideal.negf_def, Ideal.ofBits_def,
    Ideal.ofBits_one_f32]

end Cert.EdgeNet

end
-- ==== Proof.KernelPayload.lean ====
/-
  The kernel body's two stored values at an entry, at the ideal instance.

  At row `r` and column `j` of a grid point's block, the value stored into the message buffer is the message network
  of row `r` of the point's state block, and the value stored into the positional message buffer is the positional
  network of row `r` of the point's positional state block: each is two dense layers (a matrix product into a zero
  accumulator plus a one-row bias) with an entrywise activation after each, and the changes of float format in
  between are the identity over the extended reals.
-/
import proofs.«179030_j75333726372237_1_alg».proof.Proof.Gen.KernelIdeal.Skeleton
import proofs.«179030_j75333726372237_1_alg».proof.Proof.EdgeNetwork

noncomputable section

namespace Cert.KernelIdeal.Payload

open Idealize.ShloMosaic Idealize.ShloMosaic.ValueIdx Cert.KernelIdeal Cert.KernelIdeal.Gen Cert.EdgeNet

/-- The message payload at `(r, j)`: the message network of row `r` of the state block. -/
theorem msg_apply (x0 : Vec Ideal S1600x513 .f32) (w1 : Vec Ideal S513x128 .bf16) (b1 : Vec Ideal S1x128 .f32)
    (w2 : Vec Ideal S128x128 .bf16) (b2 : Vec Ideal S1x128 .f32) (r : Fin 1600) (j : Fin 128) :
    k0_pay2 (F := Ideal) x0 w1 b1 w2 b2 (ix2 r j)
      = msg (fun k => x0 (ix2 r k)) w1 (fun k => b1 (ix2 (0 : Fin 1) k)) w2 (fun k => b2 (ix2 (0 : Fin 1) k)) j := by
  unfold k0_pay2
  refine (congrArg silu (dense_apply _ rfl _ _ _ _ _ _ r j)).trans ?_
  unfold msg
  refine congrArg silu (congrArg (fun f => affine f _ _ j) (funext fun k => ?_))
  refine (congrArg silu (dense_apply _ rfl _ _ _ _ _ _ r k)).trans ?_
  refine congrArg silu (congrArg (fun f => affine f _ _ k) (funext fun k' => ?_))
  exact congrFun (shapeCast_self x0 _) (ix2 r k')

/-- The positional message payload at `(r, j)`: the positional network of row `r` of the positional state block. -/
theorem msgPe_apply (x1 : Vec Ideal S1600x257 .f32) (w1 : Vec Ideal S257x128 .bf16) (b1 : Vec Ideal S1x128 .f32)
    (w2 : Vec Ideal S128x128 .bf16) (b2 : Vec Ideal S1x128 .f32) (r : Fin 1600) (j : Fin 128) :
    k0_pay1 (F := Ideal) (k0_pay3 (F := Ideal) x1 w1 b1) w2 b2 (ix2 r j)
      = msgPe (fun k => x1 (ix2 r k)) w1 (fun k => b1 (ix2 (0 : Fin 1) k)) w2 (fun k => b2 (ix2 (0 : Fin 1) k)) j := by
  unfold k0_pay1
  refine (congrArg Ideal.tanh (dense_apply _ rfl _ _ _ _ _ _ r j)).trans ?_
  unfold msgPe
  refine congrArg Ideal.tanh (congrArg (fun f => affine f _ _ j) (funext fun k => ?_))
  unfold k0_pay3
  refine (congrArg Ideal.tanh (dense_apply _ rfl _ _ _ _ _ _ r k)).trans ?_
  refine congrArg Ideal.tanh (congrArg (fun f => affine f _ _ k) (funext fun k' => ?_))
  exact congrFun (shapeCast_self x1 _) (ix2 r k')

end Cert.KernelIdeal.Payload

end
-- ==== Proof.KernelBlocks.lean ====
/-
  From the blocks written back to the whole output arrays.

  Grid point `t` stages rows `1600·t … 1600·t + 1599` of the two state arrays and the whole of each weight matrix and
  bias row, and writes back rows `1600·t … 1600·t + 1599` of the two message arrays. Since the value stored at row
  `r` of a block depends only on row `r` of the staged state block, what point `t` writes back is the restriction to
  its rows of ONE function of the whole arrays: entry `(e, j)` is the edge network of row `e` of the state array. The
  250 blocks tile the 400000 rows, so after the region each message array is that function everywhere.
-/
import proofs.«179030_j75333726372237_1_alg».proof.Proof.KernelIdealRegion
import proofs.«179030_j75333726372237_1_alg».proof.Proof.KernelPayload

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Region Cert.EdgeNet

variable (m : (ℓ : Loc nD τ sig) → Buf (Elt Ideal) ℓ)

theorem hz : (![0, 0] : Fin 2 → Nat) = fun _ => 0 := funext fun a => by fin_cases a <;> rfl

/-- The block index maps over the grid: the state windows and the output windows move down the rows with the point,
    every other window stays on its one block. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0
    ∧ win0_11.index t (0 : Fin 2) = t.val
    ∧ win0_11.index t (1 : Fin 2) = 0 :=
  (by decide +kernel : ∀ t : Fin grid0.N, _)

/-- The message array as one function of the state array, the weights and the bias rows. -/
def msgArray (S : S400000x513.Idx → EReal) (W₁ : S513x128.Idx → EReal) (b₁ : S1x128.Idx → EReal) (W₂ : S128x128.Idx → EReal)
    (b₂ : S1x128.Idx → EReal) : S400000x128.Idx → EReal :=
  fun i => msg (fun k => S (ix2 (i 0) k)) W₁ (fun k => b₁ (ix2 (0 : Fin 1) k)) W₂ (fun k => b₂ (ix2 (0 : Fin 1) k)) (i 1)

/-- The positional message array likewise. -/
def msgPeArray (S : S400000x257.Idx → EReal) (W₁ : S257x128.Idx → EReal) (b₁ : S1x128.Idx → EReal) (W₂ : S128x128.Idx → EReal)
    (b₂ : S1x128.Idx → EReal) : S400000x128.Idx → EReal :=
  fun i => msgPe (fun k => S (ix2 (i 0) k)) W₁ (fun k => b₁ (ix2 (0 : Fin 1) k)) W₂ (fun k => b₂ (ix2 (0 : Fin 1) k)) (i 1)

theorem msg_congr {K : ℕ} {row row' : Fin K → EReal} {W₁ W₁' : (⟨2, ![K, 128]⟩ : Shape).Idx → EReal} {b₁ b₁' : Fin 128 → EReal}
    {W₂ W₂' : (⟨2, ![128, 128]⟩ : Shape).Idx → EReal} {b₂ b₂' : Fin 128 → EReal} {j j' : Fin 128}
    (h₁ : row = row') (h₂ : W₁ = W₁') (h₃ : b₁ = b₁') (h₄ : W₂ = W₂') (h₅ : b₂ = b₂') (h₆ : j = j') :
    msg row W₁ b₁ W₂ b₂ j = msg row' W₁' b₁' W₂' b₂' j' := by subst h₁ h₂ h₃ h₄ h₅ h₆; rfl
theorem msgPe_congr {K : ℕ} {row row' : Fin K → EReal} {W₁ W₁' : (⟨2, ![K, 128]⟩ : Shape).Idx → EReal} {b₁ b₁' : Fin 128 → EReal}
    {W₂ W₂' : (⟨2, ![128, 128]⟩ : Shape).Idx → EReal} {b₂ b₂' : Fin 128 → EReal} {j j' : Fin 128}
    (h₁ : row = row') (h₂ : W₁ = W₁') (h₃ : b₁ = b₁') (h₄ : W₂ = W₂') (h₅ : b₂ = b₂') (h₆ : j = j') :
    msgPe row W₁ b₁ W₂ b₂ j = msgPe row' W₁' b₁' W₂' b₂' j' := by subst h₁ h₂ h₃ h₄ h₅ h₆; rfl

/-- Window 2 stages its whole array at every point. -/
theorem whole2 (c : Dev nD) (t : Fin cfg0.N) : (iblk m c 2 t : S513x128.Idx → EReal) = V m c main_v50 := by
  obtain ⟨f0a, f0b, f1a, f1b, f2a, f2b, f3a, f3b, f4a, f4b, f5a, f5b, f6a, f6b, f7a, f7b, f8a, f8b, f9a, f9b, f10a, f10b, f11a, f11b⟩ := idx_facts t
  funext y
  show V m c main_v50 (((cfg0.win 2).blk t).view.emb y) = V m c main_v50 y
  have h : ((cfg0.win 2).blk t).view.emb y = y := funext fun a => Fin.ext (by
    match a with
    | ⟨0, _⟩ => show win0_2.index t (0 : Fin 2) * 513 + 1 * (y 0).val = (y 0).val; rw [f2a]; omega
    | ⟨1, _⟩ => show win0_2.index t (1 : Fin 2) * 128 + 1 * (y 1).val = (y 1).val; rw [f2b]; omega)
  rw [h]

/-- Window 3 stages its whole array at every point. -/
theorem whole3 (c : Dev nD) (t : Fin cfg0.N) : (iblk m c 3 t : S1x128.Idx → EReal) = V m c main_v54 := by
  obtain ⟨f0a, f0b, f1a, f1b, f2a, f2b, f3a, f3b, f4a, f4b, f5a, f5b, f6a, f6b, f7a, f7b, f8a, f8b, f9a, f9b, f10a, f10b, f11a, f11b⟩ := idx_facts t
  funext y
  show V m c main_v54 (((cfg0.win 3).blk t).view.emb y) = V m c main_v54 y
  have h : ((cfg0.win 3).blk t).view.emb y = y := funext fun a => Fin.ext (by
    match a with
    | ⟨0, _⟩ => show win0_3.index t (0 : Fin 2) * 1 + 1 * (y 0).val = (y 0).val; rw [f3a]; omega
    | ⟨1, _⟩ => show win0_3.index t (1 : Fin 2) * 128 + 1 * (y 1).val = (y 1).val; rw [f3b]; omega)
  rw [h]

/-- Window 4 stages its whole array at every point. -/
theorem whole4 (c : Dev nD) (t : Fin cfg0.N) : (iblk m c 4 t : S128x128.Idx → EReal) = V m c main_v51 := by
  obtain ⟨f0a, f0b, f1a, f1b, f2a, f2b, f3a, f3b, f4a, f4b, f5a, f5b, f6a, f6b, f7a, f7b, f8a, f8b, f9a, f9b, f10a, f10b, f11a, f11b⟩ := idx_facts t
  funext y
  show V m c main_v51 (((cfg0.win 4).blk t).view.emb y) = V m c main_v51 y
  have h : ((cfg0.win 4).blk t).view.emb y = y := funext fun a => Fin.ext (by
    match a with
    | ⟨0, _⟩ => show win0_4.index t (0 : Fin 2) * 128 + 1 * (y 0).val = (y 0).val; rw [f4a]; omega
    | ⟨1, _⟩ => show win0_4.index t (1 : Fin 2) * 128 + 1 * (y 1).val = (y 1).val; rw [f4b]; omega)
  rw [h]

/-- Window 5 stages its whole array at every point. -/
theorem whole5 (c : Dev nD) (t : Fin cfg0.N) : (iblk m c 5 t : S1x128.Idx → EReal) = V m c main_v55 := by
  obtain ⟨f0a, f0b, f1a, f1b, f2a, f2b, f3a, f3b, f4a, f4b, f5a, f5b, f6a, f6b, f7a, f7b, f8a, f8b, f9a, f9b, f10a, f10b, f11a, f11b⟩ := idx_facts t
  funext y
  show V m c main_v55 (((cfg0.win 5).blk t).view.emb y) = V m c main_v55 y
  have h : ((cfg0.win 5).blk t).view.emb y = y := funext fun a => Fin.ext (by
    match a with
    | ⟨0, _⟩ => show win0_5.index t (0 : Fin 2) * 1 + 1 * (y 0).val = (y 0).val; rw [f5a]; omega
    | ⟨1, _⟩ => show win0_5.index t (1 : Fin 2) * 128 + 1 * (y 1).val = (y 1).val; rw [f5b]; omega)
  rw [h]

/-- Window 6 stages its whole array at every point. -/
theorem whole6 (c : Dev nD) (t : Fin cfg0.N) : (iblk m c 6 t : S257x128.Idx → EReal) = V m c main_v52 := by
  obtain ⟨f0a, f0b, f1a, f1b, f2a, f2b, f3a, f3b, f4a, f4b, f5a, f5b, f6a, f6b, f7a, f7b, f8a, f8b, f9a, f9b, f10a, f10b, f11a, f11b⟩ := idx_facts t
  funext y
  show V m c main_v52 (((cfg0.win 6).blk t).view.emb y) = V m c main_v52 y
  have h : ((cfg0.win 6).blk t).view.emb y = y := funext fun a => Fin.ext (by
    match a with
    | ⟨0, _⟩ => show win0_6.index t (0 : Fin 2) * 257 + 1 * (y 0).val = (y 0).val; rw [f6a]; omega
    | ⟨1, _⟩ => show win0_6.index t (1 : Fin 2) * 128 + 1 * (y 1).val = (y 1).val; rw [f6b]; omega)
  rw [h]

/-- Window 7 stages its whole array at every point. -/
theorem whole7 (c : Dev nD) (t : Fin cfg0.N) : (iblk m c 7 t : S1x128.Idx → EReal) = V m c main_v56 := by
  obtain ⟨f0a, f0b, f1a, f1b, f2a, f2b, f3a, f3b, f4a, f4b, f5a, f5b, f6a, f6b, f7a, f7b, f8a, f8b, f9a, f9b, f10a, f10b, f11a, f11b⟩ := idx_facts t
  funext y
  show V m c main_v56 (((cfg0.win 7).blk t).view.emb y) = V m c main_v56 y
  have h : ((cfg0.win 7).blk t).view.emb y = y := funext fun a => Fin.ext (by
    match a with
    | ⟨0, _⟩ => show win0_7.index t (0 : Fin 2) * 1 + 1 * (y 0).val = (y 0).val; rw [f7a]; omega
    | ⟨1, _⟩ => show win0_7.index t (1 : Fin 2) * 128 + 1 * (y 1).val = (y 1).val; rw [f7b]; omega)
  rw [h]

/-- Window 8 stages its whole array at every point. -/
theorem whole8 (c : Dev nD) (t : Fin cfg0.N) : (iblk m c 8 t : S128x128.Idx → EReal) = V m c main_v53 := by
  obtain ⟨f0a, f0b, f1a, f1b, f2a, f2b, f3a, f3b, f4a, f4b, f5a, f5b, f6a, f6b, f7a, f7b, f8a, f8b, f9a, f9b, f10a, f10b, f11a, f11b⟩ := idx_facts t
  funext y
  show V m c main_v53 (((cfg0.win 8).blk t).view.emb y) = V m c main_v53 y
  have h : ((cfg0.win 8).blk t).view.emb y = y := funext fun a => Fin.ext (by
    match a with
    | ⟨0, _⟩ => show win0_8.index t (0 : Fin 2) * 128 + 1 * (y 0).val = (y 0).val; rw [f8a]; omega
    | ⟨1, _⟩ => show win0_8.index t (1 : Fin 2) * 128 + 1 * (y 1).val = (y 1).val; rw [f8b]; omega)
  rw [h]

/-- Window 9 stages its whole array at every point. -/
theorem whole9 (c : Dev nD) (t : Fin cfg0.N) : (iblk m c 9 t : S1x128.Idx → EReal) = V m c main_v57 := by
  obtain ⟨f0a, f0b, f1a, f1b, f2a, f2b, f3a, f3b, f4a, f4b, f5a, f5b, f6a, f6b, f7a, f7b, f8a, f8b, f9a, f9b, f10a, f10b, f11a, f11b⟩ := idx_facts t
  funext y
  show V m c main_v57 (((cfg0.win 9).blk t).view.emb y) = V m c main_v57 y
  have h : ((cfg0.win 9).blk t).view.emb y = y := funext fun a => Fin.ext (by
    match a with
    | ⟨0, _⟩ => show win0_9.index t (0 : Fin 2) * 1 + 1 * (y 0).val = (y 0).val; rw [f9a]; omega
    | ⟨1, _⟩ => show win0_9.index t (1 : Fin 2) * 128 + 1 * (y 1).val = (y 1).val; rw [f9b]; omega)
  rw [h]

/-- What point `t` writes back into window 10's array is block `t` of `msgArray` of the region-entry arrays. -/
theorem flushedMsg (c : Dev nD) (t : Fin cfg0.N) :
    (dats m 0 c).flushed 10 t = ((cfg0.win 10).blk t).view.read (Elt Ideal)
      (msgArray (V m c main_v48) (V m c main_v50) (V m c main_v54) (V m c main_v51) (V m c main_v55)) := by
  show (cfg0.win 10).cut (grid0.coords t) ((dats m 0 c).after 10 t) = _
  rw [after10]
  unfold outMsg
  rw [View.canon_unit_zero hz]
  simp only [View.ld_unit_zero (S := S1600x513) hz, View.ld_unit_zero (S := S513x128) hz, View.ld_unit_zero (S := S1x128) hz,
    View.ld_unit_zero (S := S128x128) hz]
  obtain ⟨f0a, f0b, f1a, f1b, f2a, f2b, f3a, f3b, f4a, f4b, f5a, f5b, f6a, f6b, f7a, f7b, f8a, f8b, f9a, f9b, f10a, f10b, f11a, f11b⟩ := idx_facts t
  funext y
  obtain ⟨r, j, rfl⟩ : ∃ (r : Fin 1600) (j : Fin 128), y = ix2 r j := ⟨y 0, y 1, eq_ix2 y⟩
  show k0_pay2 (F := Ideal) (iblk m c 0 t) (iblk m c 2 t) (iblk m c 3 t) (iblk m c 4 t) (iblk m c 5 t) (ix2 r j)
      = msgArray (V m c main_v48) (V m c main_v50) (V m c main_v54) (V m c main_v51) (V m c main_v55) (((cfg0.win 10).blk t).view.emb (ix2 r j))
  refine (Payload.msg_apply _ _ _ _ _ r j).trans ?_
  unfold msgArray
  refine msg_congr (funext fun k => ?_) (whole2 m c t) (funext fun k => congrFun (whole3 m c t) _) (whole4 m c t)
    (funext fun k => congrFun (whole5 m c t) _) (Fin.ext ?_)
  · show V m c main_v48 (((cfg0.win 0).blk t).view.emb (ix2 r k)) = V m c main_v48 (ix2 ((((cfg0.win 10).blk t).view.emb (ix2 r j)) 0) k)
    have h : ((cfg0.win 0).blk t).view.emb (ix2 r k) = ix2 ((((cfg0.win 10).blk t).view.emb (ix2 r j)) 0) k := funext fun a => Fin.ext (by
      match a with
      | ⟨0, _⟩ => show win0_0.index t (0 : Fin 2) * 1600 + 1 * r.val = win0_10.index t (0 : Fin 2) * 1600 + 1 * r.val; rw [f0a, f10a]
      | ⟨1, _⟩ => show win0_0.index t (1 : Fin 2) * 513 + 1 * k.val = k.val; rw [f0b]; omega)
    exact congrArg (fun i => V m c main_v48 i) h
  · show j.val = win0_10.index t (1 : Fin 2) * 128 + 1 * j.val
    rw [f10b]; omega

set_option maxHeartbeats 2000000 in
/-- What point `t` writes back into window 11's array is block `t` of `msgPeArray` of the region-entry arrays. -/
theorem flushedMsgPe (c : Dev nD) (t : Fin cfg0.N) :
    (dats m 0 c).flushed 11 t = ((cfg0.win 11).blk t).view.read (Elt Ideal)
      (msgPeArray (V m c main_v49) (V m c main_v52) (V m c main_v56) (V m c main_v53) (V m c main_v57)) := by
  show (cfg0.win 11).cut (grid0.coords t) ((dats m 0 c).after 11 t) = _
  rw [after11]
  unfold outMsgPe
  rw [View.canon_unit_zero hz]
  simp only [View.ld_unit_zero (S := S1600x257) hz, View.ld_unit_zero (S := S257x128) hz, View.ld_unit_zero (S := S1x128) hz,
    View.ld_unit_zero (S := S128x128) hz]
  obtain ⟨f0a, f0b, f1a, f1b, f2a, f2b, f3a, f3b, f4a, f4b, f5a, f5b, f6a, f6b, f7a, f7b, f8a, f8b, f9a, f9b, f10a, f10b, f11a, f11b⟩ := idx_facts t
  funext y
  obtain ⟨r, j, rfl⟩ : ∃ (r : Fin 1600) (j : Fin 128), y = ix2 r j := ⟨y 0, y 1, eq_ix2 y⟩
  show k0_pay1 (F := Ideal) (k0_pay3 (F := Ideal) (iblk m c 1 t) (iblk m c 6 t) (iblk m c 7 t)) (iblk m c 8 t) (iblk m c 9 t) (ix2 r j)
      = msgPeArray (V m c main_v49) (V m c main_v52) (V m c main_v56) (V m c main_v53) (V m c main_v57) (((cfg0.win 11).blk t).view.emb (ix2 r j))
  refine (Payload.msgPe_apply _ _ _ _ _ r j).trans ?_
  unfold msgPeArray
  refine msgPe_congr (funext fun k => ?_) (whole6 m c t) (funext fun k => congrFun (whole7 m c t) _) (whole8 m c t)
    (funext fun k => congrFun (whole9 m c t) _) (Fin.ext ?_)
  · show V m c main_v49 (((cfg0.win 1).blk t).view.emb (ix2 r k)) = V m c main_v49 (ix2 ((((cfg0.win 11).blk t).view.emb (ix2 r j)) 0) k)
    have h : ((cfg0.win 1).blk t).view.emb (ix2 r k) = ix2 ((((cfg0.win 11).blk t).view.emb (ix2 r j)) 0) k := funext fun a => Fin.ext (by
      match a with
      | ⟨0, _⟩ => show win0_1.index t (0 : Fin 2) * 1600 + 1 * r.val = win0_11.index t (0 : Fin 2) * 1600 + 1 * r.val; rw [f1a, f11a]
      | ⟨1, _⟩ => show win0_1.index t (1 : Fin 2) * 257 + 1 * k.val = k.val; rw [f1b]; omega)
    exact congrArg (fun i => V m c main_v49 i) h
  · show j.val = win0_11.index t (1 : Fin 2) * 128 + 1 * j.val
    rw [f11b]; omega

/-- An index of window 10's array lies in point `t`'s block iff each coordinate lies in the block's range on its axis. -/
theorem mem_Msg (t : Fin cfg0.N) (i : S400000x128.Idx) :
    i ∈ ((cfg0.win 10).blk t).view.set ↔ ∀ a : Fin 2, win0_10.index t a * S1600x128.size a ≤ (i a).val ∧ (i a).val < win0_10.index t a * S1600x128.size a + S1600x128.size a := by
  show i ∈ ((View.whole main_v58_0).slice (win0_10.rect t)).set ↔ _
  rw [View.set_slice_whole, Rect.mem_set_unit]
  exact Iff.rfl

/-- Every row lies in the block of the point numbered by its quotient by 1600, and every point writes back. -/
theorem cover_Msg (i : S400000x128.Idx) : ∃ t : Fin cfg0.N, (cfg0.win 10).flush t = true ∧ i ∈ ((cfg0.win 10).blk t).view.set := by
  have hi0 : (i 0).val < 400000 := (i 0).isLt
  have hi1 : (i 1).val < 128 := (i 1).isLt
  have hN : cfg0.N = 250 := N_0
  obtain ⟨t, ht⟩ : ∃ t : Fin cfg0.N, t.val = (i 0).val / 1600 := ⟨⟨(i 0).val / 1600, by rw [hN]; omega⟩, rfl⟩
  refine ⟨t, flush0_10 t, ?_⟩
  rw [mem_Msg]
  obtain ⟨f0a, f0b, f1a, f1b, f2a, f2b, f3a, f3b, f4a, f4b, f5a, f5b, f6a, f6b, f7a, f7b, f8a, f8b, f9a, f9b, f10a, f10b, f11a, f11b⟩ := idx_facts t
  intro a
  match a with
  | ⟨0, _⟩ => show win0_10.index t (0 : Fin 2) * 1600 ≤ (i 0).val ∧ (i 0).val < win0_10.index t (0 : Fin 2) * 1600 + 1600; rw [f10a, ht]; omega
  | ⟨1, _⟩ => show win0_10.index t (1 : Fin 2) * 128 ≤ (i 1).val ∧ (i 1).val < win0_10.index t (1 : Fin 2) * 128 + 128; rw [f10b]; omega

/-- After the region window 10's array is `msgArray` of the region-entry arrays, everywhere. -/
theorem final_Msg (c : Dev nD) : (dats m 0 c).arrAt 10 cfg0.N
    = msgArray (V m c main_v48) (V m c main_v50) (V m c main_v54) (V m c main_v51) (V m c main_v55) :=
  (dats m 0 c).arrAt_eq_of_cover 10 _ (fun t _ => flushedMsg m c t) cover_Msg

/-- An index of window 11's array lies in point `t`'s block iff each coordinate lies in the block's range on its axis. -/
theorem mem_MsgPe (t : Fin cfg0.N) (i : S400000x128.Idx) :
    i ∈ ((cfg0.win 11).blk t).view.set ↔ ∀ a : Fin 2, win0_11.index t a * S1600x128.size a ≤ (i a).val ∧ (i a).val < win0_11.index t a * S1600x128.size a + S1600x128.size a := by
  show i ∈ ((View.whole main_v58_1).slice (win0_11.rect t)).set ↔ _
  rw [View.set_slice_whole, Rect.mem_set_unit]
  exact Iff.rfl

/-- Every row lies in the block of the point numbered by its quotient by 1600, and every point writes back. -/
theorem cover_MsgPe (i : S400000x128.Idx) : ∃ t : Fin cfg0.N, (cfg0.win 11).flush t = true ∧ i ∈ ((cfg0.win 11).blk t).view.set := by
  have hi0 : (i 0).val < 400000 := (i 0).isLt
  have hi1 : (i 1).val < 128 := (i 1).isLt
  have hN : cfg0.N = 250 := N_0
  obtain ⟨t, ht⟩ : ∃ t : Fin cfg0.N, t.val = (i 0).val / 1600 := ⟨⟨(i 0).val / 1600, by rw [hN]; omega⟩, rfl⟩
  refine ⟨t, flush0_11 t, ?_⟩
  rw [mem_MsgPe]
  obtain ⟨f0a, f0b, f1a, f1b, f2a, f2b, f3a, f3b, f4a, f4b, f5a, f5b, f6a, f6b, f7a, f7b, f8a, f8b, f9a, f9b, f10a, f10b, f11a, f11b⟩ := idx_facts t
  intro a
  match a with
  | ⟨0, _⟩ => show win0_11.index t (0 : Fin 2) * 1600 ≤ (i 0).val ∧ (i 0).val < win0_11.index t (0 : Fin 2) * 1600 + 1600; rw [f11a, ht]; omega
  | ⟨1, _⟩ => show win0_11.index t (1 : Fin 2) * 128 ≤ (i 1).val ∧ (i 1).val < win0_11.index t (1 : Fin 2) * 128 + 128; rw [f11b]; omega

/-- After the region window 11's array is `msgPeArray` of the region-entry arrays, everywhere. -/
theorem final_MsgPe (c : Dev nD) : (dats m 0 c).arrAt 11 cfg0.N
    = msgPeArray (V m c main_v49) (V m c main_v52) (V m c main_v56) (V m c main_v53) (V m c main_v57) :=
  (dats m 0 c).arrAt_eq_of_cover 11 _ (fun t _ => flushedMsgPe m c t) cover_MsgPe

end Cert.KernelIdeal.Blocks

end
-- ==== Proof.KernelEntryBase.lean ====
/-
  The host lines before the region, read in three stretches: the main line up to the difference of the end points'
  positions, the norm, and the concatenations, conversions and reshapes. Each stretch runs on what the one before
  left, so what the region finds is the third stretch run on top of the second on top of the first.
-/
import proofs.«179030_j75333726372237_1_alg».proof.Proof.KernelIdealRegion
import proofs.«179030_j75333726372237_1_alg».proof.Proof.Gen.ReferenceIdeal.Read
import Idealize.ShloMosaic.Lib.StableHlo.Run
import Idealize.ShloMosaic.Lib.ValueLayout

set_option maxRecDepth 16384
set_option Elab.async false

noncomputable section

namespace Cert.KernelIdeal.Entry

open Idealize.ShloMosaic Idealize.ShloMosaic.TcCoe Idealize.SL.Sem Idealize.ShloMosaic.ValueIdx Idealize.ShloMosaic.StableHlo
open Cert.KernelIdeal Cert.KernelIdeal.Gen Cert.KernelIdeal.Region

variable (m : (ℓ : Loc nD τ sig) → Buf (Elt Ideal) ℓ)

/-- Running two stretches of host lines one after the other is running their concatenation. -/
theorem after_append (l₁ l₂ : List (HloOp τ sig (Elt Ideal))) (U : Valuation τ sig (Elt Ideal)) :
    StableHlo.after (l₁ ++ l₂) U = StableHlo.after l₂ (StableHlo.after l₁ U) := by
  induction l₁ generalizing U with
  | nil => rfl
  | cons op l ih => exact ih _

/-- The buffers after the first stretch, -/
def E1 (c : Dev nD) : Valuation τ sig (Elt Ideal) := StableHlo.after hostOps0 (fun b => m (c, b))
/-- and after the second. -/
def E2 (c : Dev nD) : Valuation τ sig (Elt Ideal) := StableHlo.after hostOps0_1 (E1 m c)

/-- The region-entry contents are the third stretch run on top of the second. -/
theorem V0_eq (c : Dev nD) : V0 m c = StableHlo.after hostOps0_2 (E2 m c) := by
  show StableHlo.after (hostOps0 ++ (hostOps0_1 ++ (hostOps0_2 ++ []))) (fun b => m (c, b)) = _
  rw [after_append, after_append, List.append_nil]
  rfl

end Cert.KernelIdeal.Entry

end
-- ==== Proof.KernelEntrySend.lean ====
/-
  The sender's gathered rows after the first two stretches of host lines: the node features and the positional
  encodings at each edge's sender, index by index the reference's gathers of the same arrays at the same indices.
-/
import proofs.«179030_j75333726372237_1_alg».proof.Proof.KernelEntryBase

set_option maxRecDepth 16384
set_option Elab.async false

noncomputable section

namespace Cert.KernelIdeal.Entry

open Idealize.ShloMosaic Idealize.ShloMosaic.TcCoe Idealize.SL.Sem Idealize.ShloMosaic.ValueIdx Idealize.ShloMosaic.StableHlo
open Cert.KernelIdeal Cert.KernelIdeal.Gen Cert.KernelIdeal.Region

variable (m : (ℓ : Loc nD τ sig) → Buf (Elt Ideal) ℓ)

theorem e1_xSend (c : Dev nD) : (E1 m c (Proc.devRef .tc main_v10) : S400000x128.Idx → EReal) = Cert.ReferenceIdeal.Read.val_main_v26 (F := Ideal) (m ((c : Thread nD τ).loc main_arg0)) (m ((c : Thread nD τ).loc main_arg3)) := by
  unfold E1; after_results_simp; rfl
theorem e2_xSend (c : Dev nD) : (E2 m c (Proc.devRef .tc main_v10) : S400000x128.Idx → EReal) = Cert.ReferenceIdeal.Read.val_main_v26 (F := Ideal) (m ((c : Thread nD τ).loc main_arg0)) (m ((c : Thread nD τ).loc main_arg3)) := by
  unfold E2; after_results; exact e1_xSend m c

theorem e1_peSend (c : Dev nD) : (E1 m c (Proc.devRef .tc main_v24) : S400000x128.Idx → EReal) = Cert.ReferenceIdeal.Read.val_main_v33 (F := Ideal) (m ((c : Thread nD τ).loc main_arg2)) (m ((c : Thread nD τ).loc main_arg3)) := by
  unfold E1; after_results_simp; rfl
theorem e2_peSend (c : Dev nD) : (E2 m c (Proc.devRef .tc main_v24) : S400000x128.Idx → EReal) = Cert.ReferenceIdeal.Read.val_main_v33 (F := Ideal) (m ((c : Thread nD τ).loc main_arg2)) (m ((c : Thread nD τ).loc main_arg3)) := by
  unfold E2; after_results; exact e1_peSend m c

end Cert.KernelIdeal.Entry

end
-- ==== Proof.KernelEntryRec.lean ====
/-
  The receiver's gathered rows after the first two stretches of host lines, as the reference's gathers.
-/
import proofs.«179030_j75333726372237_1_alg».proof.Proof.KernelEntrySend

set_option maxRecDepth 16384
set_option Elab.async false

noncomputable section

namespace Cert.KernelIdeal.Entry

open Idealize.ShloMosaic Idealize.ShloMosaic.TcCoe Idealize.SL.Sem Idealize.ShloMosaic.ValueIdx Idealize.ShloMosaic.StableHlo
open Cert.KernelIdeal Cert.KernelIdeal.Gen Cert.KernelIdeal.Region

variable (m : (ℓ : Loc nD τ sig) → Buf (Elt Ideal) ℓ)

theorem e1_xRec (c : Dev nD) : (E1 m c (Proc.devRef .tc main_v17) : S400000x128.Idx → EReal) = Cert.ReferenceIdeal.Read.val_main_v40 (F := Ideal) (m ((c : Thread nD τ).loc main_arg0)) (m ((c : Thread nD τ).loc main_arg3)) := by
  unfold E1; after_results_simp; rfl
theorem e2_xRec (c : Dev nD) : (E2 m c (Proc.devRef .tc main_v17) : S400000x128.Idx → EReal) = Cert.ReferenceIdeal.Read.val_main_v40 (F := Ideal) (m ((c : Thread nD τ).loc main_arg0)) (m ((c : Thread nD τ).loc main_arg3)) := by
  unfold E2; after_results; exact e1_xRec m c

theorem e1_peRec (c : Dev nD) : (E1 m c (Proc.devRef .tc main_v31) : S400000x128.Idx → EReal) = Cert.ReferenceIdeal.Read.val_main_v47 (F := Ideal) (m ((c : Thread nD τ).loc main_arg2)) (m ((c : Thread nD τ).loc main_arg3)) := by
  unfold E1; after_results_simp; rfl
theorem e2_peRec (c : Dev nD) : (E2 m c (Proc.devRef .tc main_v31) : S400000x128.Idx → EReal) = Cert.ReferenceIdeal.Read.val_main_v47 (F := Ideal) (m ((c : Thread nD τ).loc main_arg2)) (m ((c : Thread nD τ).loc main_arg3)) := by
  unfold E2; after_results; exact e1_peRec m c

end Cert.KernelIdeal.Entry

end
-- ==== Proof.KernelEntryDist.lean ====
/-
  The receiver index vector, the difference of the end points' positions, and its norm (the edge length), as the
  reference's terms.
-/
import proofs.«179030_j75333726372237_1_alg».proof.Proof.KernelEntryRec

set_option maxRecDepth 16384
set_option Elab.async false

noncomputable section

namespace Cert.KernelIdeal.Entry

open Idealize.ShloMosaic Idealize.ShloMosaic.TcCoe Idealize.SL.Sem Idealize.ShloMosaic.ValueIdx Idealize.ShloMosaic.StableHlo
open Cert.KernelIdeal Cert.KernelIdeal.Gen Cert.KernelIdeal.Region

variable (m : (ℓ : Loc nD τ sig) → Buf (Elt Ideal) ℓ)

theorem e1_rec (c : Dev nD) : (E1 m c (Proc.devRef .tc main_v3) : (⟨S400000, .i32⟩ : BufTy).Contents (Elt Ideal)) = Cert.ReferenceIdeal.Read.val_main_v3 (F := Ideal) (m ((c : Thread nD τ).loc main_arg3)) := by
  unfold E1; after_results_simp; rfl
theorem e2_rec (c : Dev nD) : (E2 m c (Proc.devRef .tc main_v3) : (⟨S400000, .i32⟩ : BufTy).Contents (Elt Ideal)) = Cert.ReferenceIdeal.Read.val_main_v3 (F := Ideal) (m ((c : Thread nD τ).loc main_arg3)) := by
  unfold E2; after_results; exact e1_rec m c

theorem e1_diff (c : Dev nD) : (E1 m c (Proc.devRef .tc main_v46) : S400000x3.Idx → EReal) = Cert.ReferenceIdeal.Read.val_main_v18 (F := Ideal) (m ((c : Thread nD τ).loc main_arg1)) (m ((c : Thread nD τ).loc main_arg3)) := by
  unfold E1; after_results_simp; rfl
/-- The edge length: the norm of the difference of the end points' positions. -/
theorem e2_dist (c : Dev nD) : (E2 m c (Proc.devRef .tc main_v47) : S400000x1.Idx → EReal) = Cert.ReferenceIdeal.Read.val_main_v19 (F := Ideal) (m ((c : Thread nD τ).loc main_arg1)) (m ((c : Thread nD τ).loc main_arg3)) := by
  unfold E2; after_results; rw [e1_diff]; rfl

end Cert.KernelIdeal.Entry

end
-- ==== Proof.KernelEntry.lean ====
/-
  What the region finds in its windows' arrays, in the reference's own terms.

  The host lines before the region compute, from the argument arrays, the same intermediate arrays as the
  reference's first lines: the sender and receiver index vectors (negative indices wrapped), the gathered node
  features and positional encodings of both end points, the edge length, and the two concatenated state arrays.
  Line by line they are the same operations of the same operands, so each array the region finds is the
  reference's term for it. The weights reach the region through a change of float format, the identity over the
  extended reals, and each bias as one row.

  The host lines are read in three stretches (the main line up to the difference of positions, the norm, the
  concatenations and conversions), each on top of what the one before left.
-/
import proofs.«179030_j75333726372237_1_alg».proof.Proof.KernelEntryDist

set_option maxRecDepth 16384
set_option Elab.async false

noncomputable section

namespace Cert.KernelIdeal.Entry

open Idealize.ShloMosaic Idealize.ShloMosaic.TcCoe Idealize.SL.Sem Idealize.ShloMosaic.ValueIdx Idealize.ShloMosaic.StableHlo
open Cert.KernelIdeal Cert.KernelIdeal.Gen Cert.KernelIdeal.Region

variable (m : (ℓ : Loc nD τ sig) → Buf (Elt Ideal) ℓ)

/-- No host line of the first two stretches writes `main_arg4`. -/
theorem e2_arg4 (c : Dev nD) : E2 m c (Proc.devRef .tc main_arg4) = m ((c : Thread nD τ).loc main_arg4) := by
  unfold E2 E1
  rw [StableHlo.after_of_forall_not_mem (b := Proc.devRef .tc main_arg4) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))]

/-- No host line of the first two stretches writes `main_arg5`. -/
theorem e2_arg5 (c : Dev nD) : E2 m c (Proc.devRef .tc main_arg5) = m ((c : Thread nD τ).loc main_arg5) := by
  unfold E2 E1
  rw [StableHlo.after_of_forall_not_mem (b := Proc.devRef .tc main_arg5) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))]

/-- No host line of the first two stretches writes `main_arg6`. -/
theorem e2_arg6 (c : Dev nD) : E2 m c (Proc.devRef .tc main_arg6) = m ((c : Thread nD τ).loc main_arg6) := by
  unfold E2 E1
  rw [StableHlo.after_of_forall_not_mem (b := Proc.devRef .tc main_arg6) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))]

/-- No host line of the first two stretches writes `main_arg7`. -/
theorem e2_arg7 (c : Dev nD) : E2 m c (Proc.devRef .tc main_arg7) = m ((c : Thread nD τ).loc main_arg7) := by
  unfold E2 E1
  rw [StableHlo.after_of_forall_not_mem (b := Proc.devRef .tc main_arg7) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))]

/-- No host line of the first two stretches writes `main_arg8`. -/
theorem e2_arg8 (c : Dev nD) : E2 m c (Proc.devRef .tc main_arg8) = m ((c : Thread nD τ).loc main_arg8) := by
  unfold E2 E1
  rw [StableHlo.after_of_forall_not_mem (b := Proc.devRef .tc main_arg8) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))]

/-- No host line of the first two stretches writes `main_arg9`. -/
theorem e2_arg9 (c : Dev nD) : E2 m c (Proc.devRef .tc main_arg9) = m ((c : Thread nD τ).loc main_arg9) := by
  unfold E2 E1
  rw [StableHlo.after_of_forall_not_mem (b := Proc.devRef .tc main_arg9) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))]

/-- No host line of the first two stretches writes `main_arg10`. -/
theorem e2_arg10 (c : Dev nD) : E2 m c (Proc.devRef .tc main_arg10) = m ((c : Thread nD τ).loc main_arg10) := by
  unfold E2 E1
  rw [StableHlo.after_of_forall_not_mem (b := Proc.devRef .tc main_arg10) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))]

/-- No host line of the first two stretches writes `main_arg11`. -/
theorem e2_arg11 (c : Dev nD) : E2 m c (Proc.devRef .tc main_arg11) = m ((c : Thread nD τ).loc main_arg11) := by
  unfold E2 E1
  rw [StableHlo.after_of_forall_not_mem (b := Proc.devRef .tc main_arg11) _ _ (List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))]

/-! ## The arrays the region finds -/

/-- The state array. -/
theorem state_eq (c : Dev nD) : (V m c main_v48 : S400000x513.Idx → EReal)
    = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  show V0 m c (Proc.devRef .tc main_v48) = _
  rw [V0_eq]
  after_results
  show concatenate S400000x513 1 [⟨S400000x128, E2 m c (Proc.devRef .tc main_v10)⟩, ⟨S400000x128, E2 m c (Proc.devRef .tc main_v24)⟩,
    ⟨S400000x128, E2 m c (Proc.devRef .tc main_v17)⟩, ⟨S400000x128, E2 m c (Proc.devRef .tc main_v31)⟩, ⟨S400000x1, E2 m c (Proc.devRef .tc main_v47)⟩]
    concatenates_S400000x128_S400000x128_S400000x128_S400000x128_S400000x1_S400000x513_d1 = _
  rw [e2_xSend, e2_peSend, e2_xRec, e2_peRec, e2_dist]
  rfl

/-- The positional state array. -/
theorem statePe_eq (c : Dev nD) : (V m c main_v49 : S400000x257.Idx → EReal)
    = Cert.ReferenceIdeal.Read.val_main_v63 (F := Ideal) (m ((c : Thread nD τ).loc main_arg1)) (m ((c : Thread nD τ).loc main_arg2)) (m ((c : Thread nD τ).loc main_arg3)) := by
  show V0 m c (Proc.devRef .tc main_v49) = _
  rw [V0_eq]
  after_results
  show concatenate S400000x257 1 [⟨S400000x128, E2 m c (Proc.devRef .tc main_v24)⟩, ⟨S400000x128, E2 m c (Proc.devRef .tc main_v31)⟩,
    ⟨S400000x1, E2 m c (Proc.devRef .tc main_v47)⟩] concatenates_S400000x128_S400000x128_S400000x1_S400000x257_d1 = _
  rw [e2_peSend, e2_peRec, e2_dist]
  rfl

/-- The receiver index vector as the host lines after the region read it. -/
theorem rec_eq (c : Dev nD) : (V0 m c (Proc.devRef .tc main_v3) : (⟨S400000, .i32⟩ : BufTy).Contents (Elt Ideal)) = Cert.ReferenceIdeal.Read.val_main_v3 (F := Ideal) (m ((c : Thread nD τ).loc main_arg3)) := by
  rw [V0_eq]
  after_results
  exact e2_rec m c

/-- A weight matrix, its float format changed: the same numbers. -/
theorem weight_v50 (c : Dev nD) (i : S513x128.Idx) : (V m c main_v50 : S513x128.Idx → EReal) i = (m ((c : Thread nD τ).loc main_arg4)) i := by
  show V0 m c (Proc.devRef .tc main_v50) i = _
  rw [V0_eq]
  after_results
  rw [e2_arg4]
  rfl

/-- A weight matrix, its float format changed: the same numbers. -/
theorem weight_v51 (c : Dev nD) (i : S128x128.Idx) : (V m c main_v51 : S128x128.Idx → EReal) i = (m ((c : Thread nD τ).loc main_arg6)) i := by
  show V0 m c (Proc.devRef .tc main_v51) i = _
  rw [V0_eq]
  after_results
  rw [e2_arg6]
  rfl

/-- A weight matrix, its float format changed: the same numbers. -/
theorem weight_v52 (c : Dev nD) (i : S257x128.Idx) : (V m c main_v52 : S257x128.Idx → EReal) i = (m ((c : Thread nD τ).loc main_arg8)) i := by
  show V0 m c (Proc.devRef .tc main_v52) i = _
  rw [V0_eq]
  after_results
  rw [e2_arg8]
  rfl

/-- A weight matrix, its float format changed: the same numbers. -/
theorem weight_v53 (c : Dev nD) (i : S128x128.Idx) : (V m c main_v53 : S128x128.Idx → EReal) i = (m ((c : Thread nD τ).loc main_arg10)) i := by
  show V0 m c (Proc.devRef .tc main_v53) i = _
  rw [V0_eq]
  after_results
  rw [e2_arg10]
  rfl

/-- A bias as one row. -/
theorem bias_v54 (c : Dev nD) (k : Fin 128) : (V m c main_v54 : S1x128.Idx → EReal) (ix2 (0 : Fin 1) k) = (m ((c : Thread nD τ).loc main_arg5)) (ix1 k) := by
  show V0 m c (Proc.devRef .tc main_v54) (ix2 (0 : Fin 1) k) = _
  rw [V0_eq]
  after_results
  rw [e2_arg5]
  exact shapeCast_a_1a_apply _ _ 0 k

/-- A bias as one row. -/
theorem bias_v55 (c : Dev nD) (k : Fin 128) : (V m c main_v55 : S1x128.Idx → EReal) (ix2 (0 : Fin 1) k) = (m ((c : Thread nD τ).loc main_arg7)) (ix1 k) := by
  show V0 m c (Proc.devRef .tc main_v55) (ix2 (0 : Fin 1) k) = _
  rw [V0_eq]
  after_results
  rw [e2_arg7]
  exact shapeCast_a_1a_apply _ _ 0 k

/-- A bias as one row. -/
theorem bias_v56 (c : Dev nD) (k : Fin 128) : (V m c main_v56 : S1x128.Idx → EReal) (ix2 (0 : Fin 1) k) = (m ((c : Thread nD τ).loc main_arg9)) (ix1 k) := by
  show V0 m c (Proc.devRef .tc main_v56) (ix2 (0 : Fin 1) k) = _
  rw [V0_eq]
  after_results
  rw [e2_arg9]
  exact shapeCast_a_1a_apply _ _ 0 k

/-- A bias as one row. -/
theorem bias_v57 (c : Dev nD) (k : Fin 128) : (V m c main_v57 : S1x128.Idx → EReal) (ix2 (0 : Fin 1) k) = (m ((c : Thread nD τ).loc main_arg11)) (ix1 k) := by
  show V0 m c (Proc.devRef .tc main_v57) (ix2 (0 : Fin 1) k) = _
  rw [V0_eq]
  after_results
  rw [e2_arg11]
  exact shapeCast_a_1a_apply _ _ 0 k

end Cert.KernelIdeal.Entry

end
-- ==== Proof.RefNetwork.lean ====
/-
  The reference's two message arrays, entry by entry.

  The reference multiplies the whole 400000-row state array by the first layer's weights, adds the bias to every row,
  applies the activation, and does the same for the second layer. At row `e` and column `j` the result is the edge
  network of row `e` of the state array: the matrix product's entry is the sum over the contracted axis, the bias
  broadcast reads the bias at `j`, and the SiLU's expansion into negate, exponential, add and divide is the SiLU.
-/
import proofs.«179030_j75333726372237_1_alg».proof.Proof.Gen.ReferenceIdeal.Read
import proofs.«179030_j75333726372237_1_alg».proof.Proof.EdgeNetwork

noncomputable section

namespace Cert.ReferenceIdeal.Network

open Idealize.ShloMosaic Idealize.ShloMosaic.ValueIdx Cert.ReferenceIdeal Cert.ReferenceIdeal.Gen Cert.ReferenceIdeal.Read Cert.EdgeNet

/-! ## The biases, broadcast to every row -/

theorem bias_v66 (x5 : (⟨S128, .f32⟩ : BufTy).Contents (Elt Ideal)) (e : Fin 400000) (j : Fin 128) : val_main_v66 (F := Ideal) x5 (ix2 e j) = x5 (ix1 j) := by
  rw [val_main_v66_apply, val_main_v65_apply]
  exact congrArg x5 (funext fun a => Fin.ext (by match a with | ⟨0, _⟩ => rfl))
theorem bias_v71 (x7 : (⟨S128, .f32⟩ : BufTy).Contents (Elt Ideal)) (e : Fin 400000) (j : Fin 128) : val_main_v71 (F := Ideal) x7 (ix2 e j) = x7 (ix1 j) := by
  rw [val_main_v71_apply, val_main_v70_apply]
  exact congrArg x7 (funext fun a => Fin.ext (by match a with | ⟨0, _⟩ => rfl))
theorem bias_v76 (x9 : (⟨S128, .f32⟩ : BufTy).Contents (Elt Ideal)) (e : Fin 400000) (j : Fin 128) : val_main_v76 (F := Ideal) x9 (ix2 e j) = x9 (ix1 j) := by
  rw [val_main_v76_apply, val_main_v75_apply]
  exact congrArg x9 (funext fun a => Fin.ext (by match a with | ⟨0, _⟩ => rfl))
theorem bias_v81 (x11 : (⟨S128, .f32⟩ : BufTy).Contents (Elt Ideal)) (e : Fin 400000) (j : Fin 128) : val_main_v81 (F := Ideal) x11 (ix2 e j) = x11 (ix1 j) := by
  rw [val_main_v81_apply, val_main_v80_apply]
  exact congrArg x11 (funext fun a => Fin.ext (by match a with | ⟨0, _⟩ => rfl))

/-! ## The message network -/

/-- The first layer before its activation, at `(e, j)`. -/
theorem v67_apply (x0 : (⟨S50000x128, .f32⟩ : BufTy).Contents (Elt Ideal)) (x1 : (⟨S50000x3, .f32⟩ : BufTy).Contents (Elt Ideal)) (x2 : (⟨S50000x128, .f32⟩ : BufTy).Contents (Elt Ideal)) (x3 : (⟨S2x400000, .i32⟩ : BufTy).Contents (Elt Ideal)) (x4 : (⟨S513x128, .f32⟩ : BufTy).Contents (Elt Ideal)) (x5 : (⟨S128, .f32⟩ : BufTy).Contents (Elt Ideal)) (e : Fin 400000) (j : Fin 128) :
    val_main_v67 (F := Ideal) x0 x1 x2 x3 x4 x5 (ix2 e j)
      = affine (fun k => val_main_v48 (F := Ideal) x0 x1 x2 x3 (ix2 e k)) x4 (fun k => x5 (ix1 k)) j := by
  show val_main_v64 (F := Ideal) x0 x1 x2 x3 x4 (ix2 e j) + val_main_v66 (F := Ideal) x5 (ix2 e j) = _
  rw [val_main_v64_apply, bias_v66]
  unfold affine
  refine congrArg (· + x5 (ix1 j)) (Finset.sum_congr rfl fun k _ => ?_)
  rw [show lidx_main_v64 (ix2 e j) k = ix2 e k from funext fun a => Fin.ext (by match a with | ⟨0, _⟩ => rfl | ⟨1, _⟩ => rfl),
    show ridx_main_v64 (ix2 e j) k = ix2 k j from funext fun a => Fin.ext (by match a with | ⟨0, _⟩ => rfl | ⟨1, _⟩ => rfl)]

/-- The first activation: the host's expansion of the SiLU. -/
theorem v68_eq (x0 : (⟨S50000x128, .f32⟩ : BufTy).Contents (Elt Ideal)) (x1 : (⟨S50000x3, .f32⟩ : BufTy).Contents (Elt Ideal)) (x2 : (⟨S50000x128, .f32⟩ : BufTy).Contents (Elt Ideal)) (x3 : (⟨S2x400000, .i32⟩ : BufTy).Contents (Elt Ideal)) (x4 : (⟨S513x128, .f32⟩ : BufTy).Contents (Elt Ideal)) (x5 : (⟨S128, .f32⟩ : BufTy).Contents (Elt Ideal)) :
    val_main_v68 (F := Ideal) x0 x1 x2 x3 x4 x5 = fun i => silu (val_main_v67 (F := Ideal) x0 x1 x2 x3 x4 x5 i) := by
  unfold val_main_v68 val_main_call1_v5 val_main_call1_v4 val_main_call1_v3 val_main_call1_v2 val_main_call1_v1 val_main_call1_v0
    val_main_call1_cst val_main_call1_cst_0
  exact silu_host _ _

/-- The second layer before its activation, at `(e, j)`. -/
theorem v72_apply (x0 : (⟨S50000x128, .f32⟩ : BufTy).Contents (Elt Ideal)) (x1 : (⟨S50000x3, .f32⟩ : BufTy).Contents (Elt Ideal)) (x2 : (⟨S50000x128, .f32⟩ : BufTy).Contents (Elt Ideal)) (x3 : (⟨S2x400000, .i32⟩ : BufTy).Contents (Elt Ideal)) (x4 : (⟨S513x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 400000) (j : Fin 128) :
    val_main_v72 (F := Ideal) x0 x1 x2 x3 x4 x5 x6 x7 (ix2 e j)
      = affine (fun k => silu (val_main_v67 (F := Ideal) x0 x1 x2 x3 x4 x5 (ix2 e k))) x6 (fun k => x7 (ix1 k)) j := by
  show val_main_v69 (F := Ideal) x0 x1 x2 x3 x4 x5 x6 (ix2 e j) + val_main_v71 (F := Ideal) x7 (ix2 e j) = _
  rw [val_main_v69_apply, bias_v71, v68_eq]
  unfold affine
  refine congrArg (· + x7 (ix1 j)) (Finset.sum_congr rfl fun k _ => ?_)
  rw [show lidx_main_v69 (ix2 e j) k = ix2 e k from funext fun a => Fin.ext (by match a with | ⟨0, _⟩ => rfl | ⟨1, _⟩ => rfl),
    show ridx_main_v69 (ix2 e j) k = ix2 k j from funext fun a => Fin.ext (by match a with | ⟨0, _⟩ => rfl | ⟨1, _⟩ => rfl)]

/-- The second activation. -/
theorem v73_eq (x0 : (⟨S50000x128, .f32⟩ : BufTy).Contents (Elt Ideal)) (x1 : (⟨S50000x3, .f32⟩ : BufTy).Contents (Elt Ideal)) (x2 : (⟨S50000x128, .f32⟩ : BufTy).Contents (Elt Ideal)) (x3 : (⟨S2x400000, .i32⟩ : BufTy).Contents (Elt Ideal)) (x4 : (⟨S513x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v73 (F := Ideal) x0 x1 x2 x3 x4 x5 x6 x7 = fun i => silu (val_main_v72 (F := Ideal) x0 x1 x2 x3 x4 x5 x6 x7 i) := by
  unfold val_main_v73 val_main_call2_v5 val_main_call2_v4 val_main_call2_v3 val_main_call2_v2 val_main_call2_v1 val_main_call2_v0
    val_main_call2_cst val_main_call2_cst_0
  exact silu_host _ _

/-- The reference's message array at `(e, j)` is the message network of row `e` of its state array. -/
theorem msg_apply (x0 : (⟨S50000x128, .f32⟩ : BufTy).Contents (Elt Ideal)) (x1 : (⟨S50000x3, .f32⟩ : BufTy).Contents (Elt Ideal)) (x2 : (⟨S50000x128, .f32⟩ : BufTy).Contents (Elt Ideal)) (x3 : (⟨S2x400000, .i32⟩ : BufTy).Contents (Elt Ideal)) (x4 : (⟨S513x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 400000) (j : Fin 128) :
    val_main_v73 (F := Ideal) x0 x1 x2 x3 x4 x5 x6 x7 (ix2 e j)
      = msg (fun k => val_main_v48 (F := Ideal) x0 x1 x2 x3 (ix2 e k)) x4 (fun k => x5 (ix1 k)) x6 (fun k => x7 (ix1 k)) j := by
  rw [v73_eq]
  show silu (val_main_v72 (F := Ideal) x0 x1 x2 x3 x4 x5 x6 x7 (ix2 e j)) = _
  rw [v72_apply]
  unfold msg
  refine congrArg silu (congrArg (fun f => affine f _ _ j) (funext fun k => ?_))
  rw [v67_apply]

/-! ## The positional network -/

/-- Its first layer before the activation, at `(e, j)`. -/
theorem v77_apply (x1 : (⟨S50000x3, .f32⟩ : BufTy).Contents (Elt Ideal)) (x2 : (⟨S50000x128, .f32⟩ : BufTy).Contents (Elt Ideal)) (x3 : (⟨S2x400000, .i32⟩ : BufTy).Contents (Elt Ideal)) (x8 : (⟨S257x128, .f32⟩ : BufTy).Contents (Elt Ideal)) (x9 : (⟨S128, .f32⟩ : BufTy).Contents (Elt Ideal)) (e : Fin 400000) (j : Fin 128) :
    val_main_v77 (F := Ideal) x1 x2 x3 x8 x9 (ix2 e j)
      = affine (fun k => val_main_v63 (F := Ideal) x1 x2 x3 (ix2 e k)) x8 (fun k => x9 (ix1 k)) j := by
  show val_main_v74 (F := Ideal) x1 x2 x3 x8 (ix2 e j) + val_main_v76 (F := Ideal) x9 (ix2 e j) = _
  rw [val_main_v74_apply, bias_v76]
  unfold affine
  refine congrArg (· + x9 (ix1 j)) (Finset.sum_congr rfl fun k _ => ?_)
  rw [show lidx_main_v74 (ix2 e j) k = ix2 e k from funext fun a => Fin.ext (by match a with | ⟨0, _⟩ => rfl | ⟨1, _⟩ => rfl),
    show ridx_main_v74 (ix2 e j) k = ix2 k j from funext fun a => Fin.ext (by match a with | ⟨0, _⟩ => rfl | ⟨1, _⟩ => rfl)]

/-- Its second layer before the activation, at `(e, j)`. -/
theorem v82_apply (x1 : (⟨S50000x3, .f32⟩ : BufTy).Contents (Elt Ideal)) (x2 : (⟨S50000x128, .f32⟩ : BufTy).Contents (Elt Ideal)) (x3 : (⟨S2x400000, .i32⟩ : BufTy).Contents (Elt Ideal)) (x8 : (⟨S257x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (e : Fin 400000) (j : Fin 128) :
    val_main_v82 (F := Ideal) x1 x2 x3 x8 x9 x10 x11 (ix2 e j)
      = affine (fun k => Ideal.tanh (val_main_v77 (F := Ideal) x1 x2 x3 x8 x9 (ix2 e k))) x10 (fun k => x11 (ix1 k)) j := by
  show val_main_v79 (F := Ideal) x1 x2 x3 x8 x9 x10 (ix2 e j) + val_main_v81 (F := Ideal) x11 (ix2 e j) = _
  rw [val_main_v79_apply, bias_v81]
  unfold affine
  refine congrArg (· + x11 (ix1 j)) (Finset.sum_congr rfl fun k _ => ?_)
  rw [show lidx_main_v79 (ix2 e j) k = ix2 e k from funext fun a => Fin.ext (by match a with | ⟨0, _⟩ => rfl | ⟨1, _⟩ => rfl),
    show ridx_main_v79 (ix2 e j) k = ix2 k j from funext fun a => Fin.ext (by match a with | ⟨0, _⟩ => rfl | ⟨1, _⟩ => rfl)]
  rfl

/-- The reference's positional message array at `(e, j)` is the positional network of row `e` of its positional state array. -/
theorem msgPe_apply (x1 : (⟨S50000x3, .f32⟩ : BufTy).Contents (Elt Ideal)) (x2 : (⟨S50000x128, .f32⟩ : BufTy).Contents (Elt Ideal)) (x3 : (⟨S2x400000, .i32⟩ : BufTy).Contents (Elt Ideal)) (x8 : (⟨S257x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (e : Fin 400000) (j : Fin 128) :
    val_main_v83 (F := Ideal) x1 x2 x3 x8 x9 x10 x11 (ix2 e j)
      = msgPe (fun k => val_main_v63 (F := Ideal) x1 x2 x3 (ix2 e k)) x8 (fun k => x9 (ix1 k)) x10 (fun k => x11 (ix1 k)) j := by
  show Ideal.tanh (val_main_v82 (F := Ideal) x1 x2 x3 x8 x9 x10 x11 (ix2 e j)) = _
  rw [v82_apply]
  unfold msgPe
  refine congrArg Ideal.tanh (congrArg (fun f => affine f _ _ j) (funext fun k => ?_))
  rw [v77_apply]

end Cert.ReferenceIdeal.Network

end
-- ==== Proof.Results.lean ====
/-
  The kernel's two results are the reference's.

  After the region, the message array is the edge network of every row of the state array the region found; that
  array is the reference's state array, the weights and biases are the arguments', so the message array is the
  reference's message array, entry by entry — and likewise the positional one. The host lines after the region
  (zeros, the receiver indices as a column, the scatter-add, the residual sum) are the reference's last lines
  applied to the same operands, so each result is the reference's term for it.
-/
import proofs.«179030_j75333726372237_1_alg».proof.Proof.KernelBlocks
import proofs.«179030_j75333726372237_1_alg».proof.Proof.KernelEntry
import proofs.«179030_j75333726372237_1_alg».proof.Proof.RefNetwork

set_option maxRecDepth 16384

noncomputable section

namespace Cert.KernelIdeal.Results

open Idealize.ShloMosaic Idealize.ShloMosaic.TcCoe Idealize.SL.Sem Idealize.ShloMosaic.ValueIdx Idealize.ShloMosaic.StableHlo
open Cert.KernelIdeal Cert.KernelIdeal.Gen Cert.KernelIdeal.Region Cert.KernelIdeal.Blocks Cert.KernelIdeal.Entry Cert.EdgeNet

variable (m : (ℓ : Loc nD τ sig) → Buf (Elt Ideal) ℓ)

/-- The message array after the region is the reference's message array of the arguments. -/
theorem msg_eq (c : Dev nD) :
    msgArray (V m c main_v48) (V m c main_v50) (V m c main_v54) (V m c main_v51) (V m c main_v55)
      = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨e, j, rfl⟩ : ∃ (e : Fin 400000) (j : Fin 128), i = ix2 e j := ⟨i 0, i 1, eq_ix2 i⟩
  rw [Cert.ReferenceIdeal.Network.msg_apply]
  unfold msgArray
  refine msg_congr (funext fun k => ?_) (funext fun i => weight_v50 m c i) (funext fun k => bias_v54 m c k)
    (funext fun i => weight_v51 m c i) (funext fun k => bias_v55 m c k) rfl
  show (V m c main_v48 : S400000x513.Idx → EReal) (ix2 e k) = _
  rw [state_eq]

/-- The positional message array after the region is the reference's. -/
theorem msgPe_eq (c : Dev nD) :
    msgPeArray (V m c main_v49) (V m c main_v52) (V m c main_v56) (V m c main_v53) (V m c main_v57)
      = Cert.ReferenceIdeal.Read.val_main_v83 (F := Ideal) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) := by
  funext i
  obtain ⟨e, j, rfl⟩ : ∃ (e : Fin 400000) (j : Fin 128), i = ix2 e j := ⟨i 0, i 1, eq_ix2 i⟩
  rw [Cert.ReferenceIdeal.Network.msgPe_apply]
  unfold msgPeArray
  refine msgPe_congr (funext fun k => ?_) (funext fun i => weight_v52 m c i) (funext fun k => bias_v56 m c k)
    (funext fun i => weight_v53 m c i) (funext fun k => bias_v57 m c k) rfl
  show (V m c main_v49 : S400000x257.Idx → EReal) (ix2 e k) = _
  rw [statePe_eq]

/-- The first result: the node features plus the messages summed over each node's incoming edges. -/
theorem out0_eq (c : Dev nD) :
    (Pipeline.afterTail₀ cfgs (dats m) 0 (V0 m) [hostOps1] c main_v65 : S50000x128.Idx → EReal)
      = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v65) = _
  after_results
  rw [Pipeline.withArrays_of_ne spec0 c (V0 m c) _ main_arg0 (by exact (by decide : ∀ w, Pipeline.arrRef spec0 w ≠ main_arg0)),
    Pipeline.withArrays_of_ne spec0 c (V0 m c) _ main_v3 (by exact (by decide : ∀ w, Pipeline.arrRef spec0 w ≠ main_v3)),
    show Pipeline.withArrays spec0 c (V0 m c) (fun w => (dats m 0 c).arrAt w cfg0.N) (Proc.devRef .tc main_v58_0) = _ from
      Pipeline.withArrays_arr spec0 launch0.win.arr_inj c (V0 m c) _ 10,
    final_Msg, msg_eq, rec_eq, show V0 m c (Proc.devRef .tc main_arg0) = _ from V_main_arg0 m c]
  rfl

/-- The second result: the positional encodings plus the positional messages summed likewise. -/
theorem out1_eq (c : Dev nD) :
    (Pipeline.afterTail₀ cfgs (dats m) 0 (V0 m) [hostOps1] c main_v66 : S50000x128.Idx → EReal)
      = Cert.ReferenceIdeal.Read.val_main_v91 (F := Ideal) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) := by
  unfold Pipeline.afterTail₀
  show StableHlo.after hostOps1 _ (Proc.devRef .tc main_v66) = _
  after_results
  rw [Pipeline.withArrays_of_ne spec0 c (V0 m c) _ main_arg2 (by exact (by decide : ∀ w, Pipeline.arrRef spec0 w ≠ main_arg2)),
    Pipeline.withArrays_of_ne spec0 c (V0 m c) _ main_v3 (by exact (by decide : ∀ w, Pipeline.arrRef spec0 w ≠ main_v3)),
    show Pipeline.withArrays spec0 c (V0 m c) (fun w => (dats m 0 c).arrAt w cfg0.N) (Proc.devRef .tc main_v58_1) = _ from
      Pipeline.withArrays_arr spec0 launch0.win.arr_inj c (V0 m c) _ 11,
    final_MsgPe, msgPe_eq, rec_eq, show V0 m c (Proc.devRef .tc main_arg2) = _ from V_main_arg2 m c]
  rfl

end Cert.KernelIdeal.Results

end
-- ==== Proof.lean ====
/-
  The certificate of the message-passing layer: the kernel (a gridded two-network edge kernel between host gathers
  and host scatter-adds) against its plain reference, equal over the extended reals.

  * The frames of the kernel, printed and idealized, are the run of @main around its one region (the hand modules
    `KernelRegion` and `KernelIdealRegion`); the reference's frame is its run with the results dropped.
  * The idealization rewrote nothing, so `preserves` states nothing.
  * `algebraic`: the kernel's run ends with each result at the host tail applied to the message arrays the region
    wrote; block by block those are the edge networks of the rows of the state arrays (`KernelBlocks`), which are
    the reference's state arrays (`KernelEntry`), and the reference's message arrays are the same networks of the
    same rows (`RefNetwork`): a block-wise matrix product and one whole matrix product are the same sums, and a
    change of float format is the identity over the extended reals. No finiteness is used.
-/
import proofs.«179030_j75333726372237_1_alg».proof.Defs
import proofs.«179030_j75333726372237_1_alg».proof.Proof.Gen.Kernel
import proofs.«179030_j75333726372237_1_alg».proof.Proof.Gen.KernelIdeal
import proofs.«179030_j75333726372237_1_alg».proof.Proof.Gen.ReferenceIdeal
import proofs.«179030_j75333726372237_1_alg».proof.Proof.Gen.Pre_finite_inputs
import proofs.«179030_j75333726372237_1_alg».proof.Proof.Gen.ReferenceIdeal.Read
import proofs.«179030_j75333726372237_1_alg».proof.Proof.KernelRegion
import proofs.«179030_j75333726372237_1_alg».proof.Proof.KernelIdealRegion
import proofs.«179030_j75333726372237_1_alg».proof.Proof.Results
import Idealize.ShloMosaic.Adequacy
import Idealize.ShloMosaic.Init

noncomputable section

namespace Cert.Proof

open Idealize.ShloMosaic Idealize.SL.Sem

theorem frame_k : Cert.frame_Kernel := fun m ρ _ => Cert.Kernel.Region.frame m ρ
theorem frame_ki : Cert.frame_KernelIdeal := fun m ρ _ => Cert.KernelIdeal.Region.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end, from memories agreeing on the arguments, with the reference's terms of the kernel's arguments. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v91 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Region.run_main m ρ)
    exact ⟨((h c).2 Cert.KernelIdeal.main_v65 (Pipeline.mem_restRefs_of Cert.KernelIdeal.main_v65 (by decide) (by decide))).trans (Cert.KernelIdeal.Results.out0_eq m c),
      ((h c).2 Cert.KernelIdeal.main_v66 (Pipeline.mem_restRefs_of Cert.KernelIdeal.main_v66 (by decide) (by decide))).trans (Cert.KernelIdeal.Results.out1_eq m c),
      ((h c).2 Cert.KernelIdeal.main_arg0 (Pipeline.mem_restRefs_of Cert.KernelIdeal.main_arg0 (by decide) (by decide))).trans (Cert.KernelIdeal.Region.W_main_arg0 m (Cert.KernelIdeal.Region.dats m) c),
      ((h c).2 Cert.KernelIdeal.main_arg1 (Pipeline.mem_restRefs_of Cert.KernelIdeal.main_arg1 (by decide) (by decide))).trans (Cert.KernelIdeal.Region.W_main_arg1 m (Cert.KernelIdeal.Region.dats m) c),
      ((h c).2 Cert.KernelIdeal.main_arg2 (Pipeline.mem_restRefs_of Cert.KernelIdeal.main_arg2 (by decide) (by decide))).trans (Cert.KernelIdeal.Region.W_main_arg2 m (Cert.KernelIdeal.Region.dats m) c),
      ((h c).2 Cert.KernelIdeal.main_arg3 (Pipeline.mem_restRefs_of Cert.KernelIdeal.main_arg3 (by decide) (by decide))).trans (Cert.KernelIdeal.Region.W_main_arg3 m (Cert.KernelIdeal.Region.dats m) c),
      ((h c).2 Cert.KernelIdeal.main_arg4 (Pipeline.mem_restRefs_of Cert.KernelIdeal.main_arg4 (by decide) (by decide))).trans (Cert.KernelIdeal.Region.W_main_arg4 m (Cert.KernelIdeal.Region.dats m) c),
      ((h c).2 Cert.KernelIdeal.main_arg5 (Pipeline.mem_restRefs_of Cert.KernelIdeal.main_arg5 (by decide) (by decide))).trans (Cert.KernelIdeal.Region.W_main_arg5 m (Cert.KernelIdeal.Region.dats m) c),
      ((h c).2 Cert.KernelIdeal.main_arg6 (Pipeline.mem_restRefs_of Cert.KernelIdeal.main_arg6 (by decide) (by decide))).trans (Cert.KernelIdeal.Region.W_main_arg6 m (Cert.KernelIdeal.Region.dats m) c),
      ((h c).2 Cert.KernelIdeal.main_arg7 (Pipeline.mem_restRefs_of Cert.KernelIdeal.main_arg7 (by decide) (by decide))).trans (Cert.KernelIdeal.Region.W_main_arg7 m (Cert.KernelIdeal.Region.dats m) c),
      ((h c).2 Cert.KernelIdeal.main_arg8 (Pipeline.mem_restRefs_of Cert.KernelIdeal.main_arg8 (by decide) (by decide))).trans (Cert.KernelIdeal.Region.W_main_arg8 m (Cert.KernelIdeal.Region.dats m) c),
      ((h c).2 Cert.KernelIdeal.main_arg9 (Pipeline.mem_restRefs_of Cert.KernelIdeal.main_arg9 (by decide) (by decide))).trans (Cert.KernelIdeal.Region.W_main_arg9 m (Cert.KernelIdeal.Region.dats m) c),
      ((h c).2 Cert.KernelIdeal.main_arg10 (Pipeline.mem_restRefs_of Cert.KernelIdeal.main_arg10 (by decide) (by decide))).trans (Cert.KernelIdeal.Region.W_main_arg10 m (Cert.KernelIdeal.Region.dats m) c),
      ((h c).2 Cert.KernelIdeal.main_arg11 (Pipeline.mem_restRefs_of Cert.KernelIdeal.main_arg11 (by decide) (by decide))).trans (Cert.KernelIdeal.Region.W_main_arg11 m (Cert.KernelIdeal.Region.dats m) c)⟩
  · refine (θ_run Cert.ReferenceIdeal.defs _ _).mono (fun r h c => ?_) (Cert.ReferenceIdeal.Value.run (F := Ideal) m' ρ')
    obtain ⟨a0, a1, a2, a3, a4, a5, a6, a7, a8, a9, a10, a11⟩ := hagree c
    refine ⟨(h c).1.trans ?_, (h c).2.1.trans ?_, (h c).2.2⟩
    · rw [Cert.ReferenceIdeal.Read.val_main_v90_eq, a0, a1, a2, a3, a4, a5, a6, a7]
    · rw [Cert.ReferenceIdeal.Read.val_main_v91_eq, a1, a2, a3, a8, a9, a10, a11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
